-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x24x24x768 : Shape := ⟨4, ![32, 24, 24, 768]⟩
abbrev S17x768 : Shape := ⟨2, ![17, 768]⟩
abbrev S768 : Shape := ⟨1, ![768]⟩
abbrev S768x200 : Shape := ⟨2, ![768, 200]⟩
abbrev S200 : Shape := ⟨1, ![200]⟩
abbrev S_ : Shape := ⟨0, ![]⟩

class Facts : Prop where
  bcast_S_S32x24x24x768 : S_.BroadcastsInDim S32x24x24x768 (![] : Fin 0 → Fin S32x24x24x768.rank)
  reducesTo_S32x24x24x768_S_d0_1_2_3 : S32x24x24x768.ReducesTo [0, 1, 2, 3] S_
  h_S_ : 0 < S_.numel
  bcast_S_S17x768 : S_.BroadcastsInDim S17x768 (![] : Fin 0 → Fin S17x768.rank)
  reducesTo_S17x768_S_d0_1 : S17x768.ReducesTo [0, 1] S_
  bcast_S_S768 : S_.BroadcastsInDim S768 (![] : Fin 0 → Fin S768.rank)
  reducesTo_S768_S_d0 : S768.ReducesTo [0] S_
  bcast_S_S768x200 : S_.BroadcastsInDim S768x200 (![] : Fin 0 → Fin S768x200.rank)
  reducesTo_S768x200_S_d0_1 : S768x200.ReducesTo [0, 1] S_
  bcast_S_S200 : S_.BroadcastsInDim S200 (![] : Fin 0 → Fin S200.rank)
  reducesTo_S200_S_d0 : S200.ReducesTo [0] S_

variable [Facts]

def fn_part1 {F : FTy → Type} [FloatOps F] (main_arg4 : FVec F S768x200 .f32) (main_arg5 : FVec F S200 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x200 .f32 := Host.absf main_arg4
  let main_cst_6 : FVec F S_ .f32 := constant S_ .f32 0x7F800000#32
  let main_v20 : FVec F S768x200 .f32 := broadcastInDim S768x200 ![] bcast_S_S768x200 main_cst_6
  let main_v21 : IVec S768x200 1 := cmpf .olt main_v19 main_v20
  let main_c_7 : IVec S_ 1 := constantI S_ 1 1#1
  let main_v22 : IVec S_ 1 := (fun x v => Host.reduce IntOp.andi x v reducesTo_S768x200_S_d0_1 h_S_) main_v21 main_c_7
  let main_v23 : IVec S_ 1 := andi main_v18 main_v22
  let main_v24 : FVec F S200 .f32 := Host.absf main_arg5
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  main_v28

def fn {F : FTy → Type} [FloatOps F] (main_arg0 : FVec F S32x24x24x768 .f32) (main_arg1 : FVec F S17x768 .f32) (main_arg2 : FVec F S768 .f32) (main_arg3 : FVec F S768 .f32) (main_arg4 : FVec F S768x200 .f32) (main_arg5 : FVec F S200 .f32) : IVec S_ 1 :=
  let main_v0 : FVec F S32x24x24x768 .f32 := Host.absf main_arg0
  let main_cst : FVec F S_ .f32 := constant S_ .f32 0x7F800000#32
  let main_v1 : FVec F S32x24x24x768 .f32 := broadcastInDim S32x24x24x768 ![] bcast_S_S32x24x24x768 main_cst
  let main_v2 : IVec S32x24x24x768 1 := cmpf .olt main_v0 main_v1
  let main_c : IVec S_ 1 := constantI S_ 1 1#1
  let main_v3 : IVec S_ 1 := (fun x v => Host.reduce IntOp.andi x v reducesTo_S32x24x24x768_S_d0_1_2_3 h_S_) main_v2 main_c
  let main_v4 : FVec F S17x768 .f32 := Host.absf main_arg1
  let main_cst_0 : FVec F S_ .f32 := constant S_ .f32 0x7F800000#32
  let main_v5 : FVec F S17x768 .f32 := broadcastInDim S17x768 ![] bcast_S_S17x768 main_cst_0
  let main_v6 : IVec S17x768 1 := cmpf .olt main_v4 main_v5
  let main_c_1 : IVec S_ 1 := constantI S_ 1 1#1
  let main_v7 : IVec S_ 1 := (fun x v => Host.reduce IntOp.andi x v reducesTo_S17x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S32x24x24x768 : Shape := ⟨4, ![32, 24, 24, 768]⟩
abbrev S17x768 : Shape := ⟨2, ![17, 768]⟩
abbrev S768 : Shape := ⟨1, ![768]⟩
abbrev S768x200 : Shape := ⟨2, ![768, 200]⟩
abbrev S200 : Shape := ⟨1, ![200]⟩
abbrev S32x576x768 : Shape := ⟨3, ![32, 576, 768]⟩
abbrev S768x17 : Shape := ⟨2, ![768, 17]⟩
abbrev S_ : Shape := ⟨0, ![]⟩
abbrev S17 : Shape := ⟨1, ![17]⟩
abbrev S17x1 : Shape := ⟨2, ![17, 1]⟩
abbrev S1x17 : Shape := ⟨2, ![1, 17]⟩
abbrev S1x768 : Shape := ⟨2, ![1, 768]⟩
abbrev S1x200 : Shape := ⟨2, ![1, 200]⟩
abbrev S32x17x576 : Shape := ⟨3, ![32, 17, 576]⟩
abbrev S32x16x768 : Shape := ⟨3, ![32, 16, 768]⟩
abbrev S32x16x200 : Shape := ⟨3, ![32, 16, 200]⟩
abbrev S32x1x200 : Shape := ⟨3, ![32, 1, 200]⟩
abbrev S4x576x768 : Shape := ⟨3, ![4, 576, 768]⟩
abbrev S4x17x576 : Shape := ⟨3, ![4, 17, 576]⟩
abbrev S4x16x768 : Shape := ⟨3, ![4, 16, 768]⟩
abbrev S4x16x200 : Shape := ⟨3, ![4, 16, 200]⟩
abbrev S4x1x200 : Shape := ⟨3, ![4, 1, 200]⟩
abbrev S1x576x768 : Shape := ⟨3, ![1, 576, 768]⟩
abbrev S576x768 : Shape := ⟨2, ![576, 768]⟩
abbrev S576x17 : Shape := ⟨2, ![576, 17]⟩
abbrev S576 : Shape := ⟨1, ![576]⟩
abbrev S576x1 : Shape := ⟨2, ![576, 1]⟩
abbrev S17x576 : Shape := ⟨2, ![17, 576]⟩
abbrev S1x17x576 : Shape := ⟨3, ![1, 17, 576]⟩
abbrev S16x768 : Shape := ⟨2, ![16, 768]⟩
abbrev S16 : Shape := ⟨1, ![16]⟩
abbrev S16x1 : Shape := ⟨2, ![16, 1]⟩
abbrev S1x16x768 : Shape := ⟨3, ![1, 16, 768]⟩
abbrev S16x200 : Shape := ⟨2, ![16, 200]⟩
abbrev S1x16x200 : Shape := ⟨3, ![1, 16, 200]⟩
abbrev S1x1x200 : Shape := ⟨3, ![1, 1, 200]⟩
abbrev S32x17x24x24 : Shape := ⟨4, ![32, 17, 24, 24]⟩
abbrev S32x200 : Shape := ⟨2, ![32, 200]⟩

abbrev nBuf : Space → Nat
  | .hbm => 22
  | .vmem => 16
  | .smem => 0
  | _ => 0

abbrev bufTy : (tb : Table) → Fin (tcTables nBuf tb) → BufTy
  | .hbm, ⟨0, _⟩ => ⟨S32x24x24x768, .f32⟩
  | .hbm, ⟨1, _⟩ => ⟨S17x768, .f32⟩
  | .hbm, ⟨2, _⟩ => ⟨S768, .f32⟩
  | .hbm, ⟨3, _⟩ => ⟨S768, .f32⟩
  | .hbm, ⟨4, _⟩ => ⟨S768x200, .f32⟩
  | .hbm, ⟨5, _⟩ => ⟨S200, .f32⟩
  | .hbm, ⟨6, _⟩ => ⟨S32x576x768, .f32⟩
  | .hbm, ⟨7, _⟩ => ⟨S768x17, .f32⟩
  | .hbm, ⟨8, _⟩ => ⟨S17x768, .f32⟩
  | .hbm, ⟨9, _⟩ => ⟨S_, .f32⟩
  | .hbm, ⟨10, _⟩ => ⟨S17, .f32⟩
  | .hbm, ⟨11, _⟩ => ⟨S17x1, .f32⟩
  | .hbm, ⟨12, _⟩ => ⟨S1x17, .f32⟩
  | .hbm, ⟨13, _⟩ => ⟨S1x768, .f32⟩
  | .hbm, ⟨14, _⟩ => ⟨S1x768, .f32⟩
  | .hbm, ⟨15, _⟩ => ⟨S1x200, .f32⟩
  | .hbm, ⟨16, _⟩ => ⟨S32x17x576, .f32⟩
  | .hbm, ⟨17, _⟩ => ⟨S32x16x768, .f32⟩
  | .hbm, ⟨18, _⟩ => ⟨S32x16x200, .f32⟩
  | .hbm, ⟨19, _⟩ => ⟨S32x1x200, .f32⟩
  | .hbm, ⟨20, _⟩ => ⟨S32x17x24x24, .f32⟩
  | .hbm, ⟨21, _⟩ => ⟨S32x200, .f32⟩
  | .local _ .vmem, ⟨0, _⟩ => ⟨S4x576x768, .f32⟩
  | .local _ .vmem, ⟨1, _⟩ => ⟨S4x576x768, .f32⟩
  | .local _ .vmem, ⟨2, _⟩ => ⟨S768x17, .f32⟩
  | .local _ .vmem, ⟨3, _⟩ => ⟨S1x17, .f32⟩
  | .local _ .vmem, ⟨4, _⟩ => ⟨S1x768, .f32⟩
  | .local _ .vmem, ⟨5, _⟩ => ⟨S1x768, .f32⟩
  | .local _ .vmem, ⟨6, _⟩ => ⟨S768x200, .f32⟩
  | .local _ .vmem, ⟨7, _⟩ => ⟨S1x200, .f32⟩
  | .local _ .vmem, ⟨8, _⟩ => ⟨S4x17x576, .f32⟩
  | .local _ .vmem, ⟨9, _⟩ => ⟨S4x17x576, .f32⟩
  | .local _ .vmem, ⟨10, _⟩ => ⟨S4x16x768, .f32⟩
  | .local _ .vmem, ⟨11, _⟩ => ⟨S4x16x768, .f32⟩
  | .local _ .vmem, ⟨12, _⟩ => ⟨S4x16x200, .f32⟩
  | .local _ .vmem, ⟨13, _⟩ => ⟨S4x16x200, .f32⟩
  | .local _ .vmem, ⟨14, _⟩ => ⟨S4x1x200, .f32⟩
  | .local _ .vmem, ⟨15, _⟩ => ⟨S4x1x200, .f32⟩
  | _, _ => ⟨S32x24x24x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x17x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x16x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x16x200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x200 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S32x24x24x768_S32x576x768 : S32x24x24x768.ShapeCasts S32x576x768
  transposes_S17x768_S768x17_1_0 : S17x768.Transposes [1, 0] S768x17
  reducesTo_S17x768_S17_d1 : S17x768.ReducesTo [1] S17
  h_S_ : 0 < S_.numel
  bcast_S17_S17x1_0 : S17.BroadcastsInDim S17x1 (![0] : Fin 1 → Fin S17x1.rank)
  transposes_S17x1_S1x17_1_0 : S17x1.Transposes [1, 0] S1x17
  shapeCasts_S768_S1x768 : S768.ShapeCasts S1x768
  shapeCasts_S200_S1x200 : S200.ShapeCasts S1x200
  inb_S768x17_S768x17_0_0 : ∀ a, (![0, 0] : Fin 2 → Nat) a + S768x17.size a ≤ S768x17.size a
  h_S768x17 : 0 < S768x17.numel
  shapeCasts_S768x17_S768x17 : S768x17.ShapeCasts S768x17
  bitsLt_bf16_f32 : FTy.bits .bf16 < FTy.bits .f32
  inb_S1x17_S1x17_0_0 : ∀ a, (![0, 0] : Fin 2 → Nat) a + S1x17.size a ≤ S1x17.size a
  h_S1x17 : 0 < S1x17.numel
  shapeCasts_S1x17_S1x17 : S1x17.ShapeCasts S1x17
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x200_S768x200_0_0 : ∀ a, (![0, 0] : Fin 2 → Nat) a + S768x200.size a ≤ S768x200.size a
  h_S768x200 : 0 < S768x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  inb_S4x576x768_S1x576x768_0_0_0 : ∀ a, (![0, 0, 0] : Fin 3 → Nat) a + S1x576x768.size a ≤ S4x576x768.size a
  h_S1x576x768 : 0 < S1x576x768.numel
  shapeCasts_S1x576x768_S576x768 : S1x576x768.ShapeCasts S576x768
  broadcasts_S1x17_S576x17 : S1x17.Broadcasts S576x17
  reduces_S576x17_S576 : S576x17.Reduces [1] S576
  shapeCasts_S576_S576x1 : S576.ShapeCasts S576x1
  broadcasts_S576x1_S576x17 : S576x1.Broadcasts S576x17
  transposes_S576x17_p1_0_S17x576 : S576x17.Transposes [1, 0] S17x576
  inb_S4x17x576_S1x17x576_0_0_0 : ∀ a, (![0, 0, 0] : Fin 3 → Nat) a + S1x17x576.size a ≤ S4x17x576.size a
  h_S1x17x576 : 0 < S1x17x576.numel
  shapeCasts_S1x17x576_S17x576 : S1x17x576.ShapeCasts S17x576
  shapeCasts_S17x576_S1x17x576 : S17x576.ShapeCasts S1x17x576
  slices_S17x768_o0_0_S16x768 : S17x768.Slices ![0, 0] S16x768
  reduces_S16x768_S16 : S16x768.Reduces [1] S16
  shapeCasts_S16_S16x1 : S16.ShapeCasts S16x1
  broadcasts_S16x1_S16x768 : S16x1.Broadcasts S16x768
  broadcasts_S1x768_S16x768 : S1x768.Broadcasts S16x768
  inb_S4x16x768_S1x16x768_0_0_0 : ∀ a, (![0, 0, 0] : Fin 3 → Nat) a + S1x16x768.size a ≤ S4x16x768.size a
  h_S1x16x768 : 0 < S1x16x768.numel
  shapeCasts_S1x16x768_S16x768 : S1x16x768.ShapeCasts S16x768
  shapeCasts_S16x768_S1x16x768 : S16x768.ShapeCasts S1x16x768
  broadcasts_S1x200_S16x200 : S1x200.Broadcasts S16x200
  inb_S4x16x200_S1x16x200_0_0_0 : ∀ a, (![0, 0, 0] : Fin 3 → Nat) a + S1x16x200.size a ≤ S4x16x200.size a
  h_S1x16x200 : 0 < S1x16x200.numel
  shapeCasts_S1x16x200_S16x200 : S1x16x200.ShapeCasts S16x200
  shapeCasts_S16x200_S1x16x200 : S16x200.ShapeCasts S1x16x200
  reduces_S16x200_S200 : S16x200.Reduces [0] S200
  inb_S4x1x200_S1x1x200_0_0_0 : ∀ a, (![0, 0, 0] : Fin 3 → Nat) a + S1x1x200.size a ≤ S4x1x200.size a
  h_S1x1x200 : 0 < S1x1x200.numel
  shapeCasts_S1x1x200_S1x200 : S1x1x200.ShapeCasts S1x200
  shapeCasts_S1x200_S1x1x200 : S1x200.ShapeCasts S1x1x200
  inb_S4x576x768_S1x576x768_1_0_0 : ∀ a, (![1, 0, 0] : Fin 3 → Nat) a + S1x576x768.size a ≤ S4x576x768.size a
  inb_S4x17x576_S1x17x576_1_0_0 : ∀ a, (![1, 0, 0] : Fin 3 → Nat) a + S1x17x576.size a ≤ S4x17x576.size a
  inb_S4x16x768_S1x16x768_1_0_0 : ∀ a, (![1, 0, 0] : Fin 3 → Nat) a + S1x16x768.size a ≤ S4x16x768.size a
  inb_S4x16x200_S1x16x200_1_0_0 : ∀ a, (![1, 0, 0] : Fin 3 → Nat) a + S1x16x200.size a ≤ S4x16x200.size a
  inb_S4x1x200_S1x1x200_1_0_0 : ∀ a, (![1, 0, 0] : Fin 3 → Nat) a + S1x1x200.size a ≤ S4x1x200.size a
  inb_S4x576x768_S1x576x768_2_0_0 : ∀ a, (![2, 0, 0] : Fin 3 → Nat) a + S1x576x768.size a ≤ S4x576x768.size a
  inb_S4x17x576_S1x17x576_2_0_0 : ∀ a, (![2, 0, 0] : Fin 3 → Nat) a + S1x17x576.size a ≤ S4x17x576.size a
  inb_S4x16x768_S1x16x768_2_0_0 : ∀ a, (![2, 0, 0] : Fin 3 → Nat) a + S1x16x768.size a ≤ S4x16x768.size a
  inb_S4x16x200_S1x16x200_2_0_0 : ∀ a, (![2, 0, 0] : Fin 3 → Nat) a + S1x16x200.size a ≤ S4x16x200.size a
  inb_S4x1x200_S1x1x200_2_0_0 : ∀ a, (![2, 0, 0] : Fin 3 → Nat) a + S1x1x200.size a ≤ S4x1x200.size a
  inb_S4x576x768_S1x576x768_3_0_0 : ∀ a, (![3, 0, 0] : Fin 3 → Nat) a + S1x576x768.size a ≤ S4x576x768.size a
  inb_S4x17x576_S1x17x576_3_0_0 : ∀ a, (![3, 0, 0] : Fin 3 → Nat) a + S1x17x576.size a ≤ S4x17x576.size a
  inb_S4x16x768_S1x16x768_3_0_0 : ∀ a, (![3, 0, 0] : Fin 3 → Nat) a + S1x16x768.size a ≤ S4x16x768.size a
  inb_S4x16x200_S1x16x200_3_0_0 : ∀ a, (![3, 0, 0] : Fin 3 → Nat) a + S1x16x200.size a ≤ S4x16x200.size a
  inb_S4x1x200_S1x1x200_3_0_0 : ∀ a, (![3, 0, 0] : Fin 3 → Nat) a + S1x1x200.size a ≤ S4x1x200.size a
  shapeCasts_S32x17x576_S32x17x24x24 : S32x17x576.ShapeCasts S32x17x24x24
  shapeCasts_S32x1x200_S32x200 : S32x1x200.ShapeCasts S32x200
  dot_S576x768_S768x17_S576x17_1_0_0_1_n_n_wf : DotDims.WF S576x768 S768x17 S576x17 [1] [0] [0] [1] [] []
  dot_S576x17_S576x768_S17x768_0_0_1_1_n_n_wf : DotDims.WF S576x17 S576x768 S17x768 [0] [0] [1] [1] [] []
  dot_S16x768_S768x200_S16x200_1_0_0_1_n_n_wf : DotDims.WF S16x768 S768x200 S16x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x576x768.size a ≤ S32x576x768.size a
  hwx0_0 : ∀ i : grid0.Coords, EltTy.bits .f32 = 32 ∨ (Rect.block (s := S32x576x768) S4x576x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x17.size a ≤ S768x17.size a
  hwx0_1 : ∀ i : grid0.Coords, EltTy.bits .f32 = 32 ∨ (Rect.block (s := S768x17) S768x17.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x17.size a ≤ S1x17.size a
  hwx0_2 : ∀ i : grid0.Coords, EltTy.bits .f32 = 32 ∨ (Rect.block (s := S1x17) S1x17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x200.size a ≤ S768x200.size a
  hwx0_5 : ∀ i : grid0.Coords, EltTy.bits .f32 = 32 ∨ (Rect.block (s := S768x200) S768x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x200.size a ≤ S1x200.size a
  hwx0_6 : ∀ i : grid0.Coords, EltTy.bits .f32 = 32 ∨ (Rect.block (s := S1x200) S1x200.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x17x576.size a ≤ S32x17x576.size a
  hwx0_7 : ∀ i : grid0.Coords, EltTy.bits .f32 = 32 ∨ (Rect.block (s := S32x17x576) S4x17x576.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x16x768.size a ≤ S32x16x768.size a
  hwx0_8 : ∀ i : grid0.Coords, EltTy.bits .f32 = 32 ∨ (Rect.block (s := S32x16x768) S4x16x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x16x200.size a ≤ S32x16x200.size a
  hwx0_9 : ∀ i : grid0.Coords, EltTy.bits .f32 = 32 ∨ (Rect.block (s := S32x16x200) S4x16x200.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x1x200.size a ≤ S32x1x200.size a
  hwx0_10 : ∀ i : grid0.Coords, EltTy.bits .f32 = 32 ∨ (Rect.block (s := S32x1x200) S4x1x200.size (cc0_transform_10 i) (hinb0_10 i)).WholeWords (EltTy.packing .f32)

variable [Facts₀]

def dot_S576x768_S768x17_S576x17_1_0_0_1_n_n : DotDims S576x768 S768x17 S576x17 where
  lhsContracting := [1]
  rhsContracting := [0]
  lhsNonContracting := [0]
  rhsNonContracting := [1]
  lhsBatch := []
  rhsBatch := []
  wf := dot_S576x768_S768x17_S576x17_1_0_0_1_n_n_wf
def dot_S576x17_S576x768_S17x768_0_0_1_1_n_n : DotDims S576x17 S576x768 S17x768 where
  lhsContracting := [0]
  rhsContracting := [0]
  lhsNonContracting := [1]
  rhsNonContracting := [1]
  lhsBatch := []
  rhsBatch := []
  wf := dot_S576x17_S576x768_S17x768_0_0_1_1_n_n_wf
def dot_S16x768_S768x200_S16x200_1_0_0_1_n_n : DotDims S16x768 S768x200 S16x200 where
  lhsContracting := [1]
  rhsContracting := [0]
  lhsNonContracting := [0]
  rhsNonContracting := [1]
  lhsBatch := []
  rhsBatch := []
  wf := dot_S16x768_S768x200_S16x200_1_0_0_1_n_n_wf

abbrev win0_0 : Pipeline.Window sig grid0 :=
  Pipeline.Window.ofSpec (Memref.whole main_v0) S4x576x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x17.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x17.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S768x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S4x17x576.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S4x16x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_2) S4x16x200.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_3) S4x1x200.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x24x24x768 : Shape := ⟨4, ![32, 24, 24, 768]⟩
abbrev S17x768 : Shape := ⟨2, ![17, 768]⟩
abbrev S768 : Shape := ⟨1, ![768]⟩
abbrev S768x200 : Shape := ⟨2, ![768, 200]⟩
abbrev S200 : Shape := ⟨1, ![200]⟩
abbrev S32x576x768 : Shape := ⟨3, ![32, 576, 768]⟩
abbrev S_ : Shape := ⟨0, ![]⟩
abbrev S32x576 : Shape := ⟨2, ![32, 576]⟩
abbrev S32x576x1 : Shape := ⟨3, ![32, 576, 1]⟩
abbrev S17 : Shape := ⟨1, ![17]⟩
abbrev S32x576x17 : Shape := ⟨3, ![32, 576, 17]⟩
abbrev S1x1x17 : Shape := ⟨3, ![1, 1, 17]⟩
abbrev S32x17x576 : Shape := ⟨3, ![32, 17, 576]⟩
abbrev S32x17x24x24 : Shape := ⟨4, ![32, 17, 24, 24]⟩
abbrev S32x17x768 : Shape := ⟨3, ![32, 17, 768]⟩
abbrev S32x16x768 : Shape := ⟨3, ![32, 16, 768]⟩
abbrev S32x16 : Shape := ⟨2, ![32, 16]⟩
abbrev S32x16x1 : Shape := ⟨3, ![32, 16, 1]⟩
abbrev S1x1x768 : Shape := ⟨3, ![1, 1, 768]⟩
abbrev S32x16x200 : Shape := ⟨3, ![32, 16, 200]⟩
abbrev S1x1x200 : Shape := ⟨3, ![1, 1, 200]⟩
abbrev S32x200 : Shape := ⟨2, ![32, 200]⟩

abbrev nBuf : Space → Nat
  | .hbm => 83
  | .vmem => 0
  | .smem => 0
  | _ => 0

abbrev bufTy : (tb : Table) → Fin (tcTables nBuf tb) → BufTy
  | .hbm, ⟨0, _⟩ => ⟨S32x24x24x768, .f32⟩
  | .hbm, ⟨1, _⟩ => ⟨S17x768, .f32⟩
  | .hbm, ⟨2, _⟩ => ⟨S768, .f32⟩
  | .hbm, ⟨3, _⟩ => ⟨S768, .f32⟩
  | .hbm, ⟨4, _⟩ => ⟨S768x200, .f32⟩
  | .hbm, ⟨5, _⟩ => ⟨S200, .f32⟩
  | .hbm, ⟨6, _⟩ => ⟨S32x576x768, .f32⟩
  | .hbm, ⟨7, _⟩ => ⟨S32x576x768, .f32⟩
  | .hbm, ⟨8, _⟩ => ⟨S_, .f32⟩
  | .hbm, ⟨9, _⟩ => ⟨S32x576, .f32⟩
  | .hbm, ⟨10, _⟩ => ⟨S32x576x1, .f32⟩
  | .hbm, ⟨11, _⟩ => ⟨S17x768, .f32⟩
  | .hbm, ⟨12, _⟩ => ⟨S_, .f32⟩
  | .hbm, ⟨13, _⟩ => ⟨S17, .f32⟩
  | .hbm, ⟨14, _⟩ => ⟨S32x576x17, .f32⟩
  | .hbm, ⟨15, _⟩ => ⟨S_, .f32⟩
  | .hbm, ⟨16, _⟩ => ⟨S32x576x17, .f32⟩
  | .hbm, ⟨17, _⟩ => ⟨S32x576x17, .f32⟩
  | .hbm, ⟨18, _⟩ => ⟨S32x576x17, .f32⟩
  | .hbm, ⟨19, _⟩ => ⟨S32x576x17, .f32⟩
  | .hbm, ⟨20, _⟩ => ⟨S1x1x17, .f32⟩
  | .hbm, ⟨21, _⟩ => ⟨S32x576x17, .f32⟩
  | .hbm, ⟨22, _⟩ => ⟨S32x576x17, .f32⟩
  | .hbm, ⟨23, _⟩ => ⟨S32x576x17, .f32⟩
  | .hbm, ⟨24, _⟩ => ⟨S_, .f32⟩
  | .hbm, ⟨25, _⟩ => ⟨S32x576, .f32⟩
  | .hbm, ⟨26, _⟩ => ⟨S_, .f32⟩
  | .hbm, ⟨27, _⟩ => ⟨S32x576, .f32⟩
  | .hbm, ⟨28, _⟩ => ⟨S32x576, .f32⟩
  | .hbm, ⟨29, _⟩ => ⟨S32x576x1, .f32⟩
  | .hbm, ⟨30, _⟩ => ⟨S32x576x17, .f32⟩
  | .hbm, ⟨31, _⟩ => ⟨S32x576x17, .f32⟩
  | .hbm, ⟨32, _⟩ => ⟨S32x576x17, .f32⟩
  | .hbm, ⟨33, _⟩ => ⟨S_, .f32⟩
  | .hbm, ⟨34, _⟩ => ⟨S32x576, .f32⟩
  | .hbm, ⟨35, _⟩ => ⟨S32x576x1, .f32⟩
  | .hbm, ⟨36, _⟩ => ⟨S32x576x17, .f32⟩
  | .hbm, ⟨37, _⟩ => ⟨S32x576x17, .f32⟩
  | .hbm, ⟨38, _⟩ => ⟨S32x17x576, .f32⟩
  | .hbm, ⟨39, _⟩ => ⟨S32x17x24x24, .f32⟩
  | .hbm, ⟨40, _⟩ => ⟨S32x17x768, .f32⟩
  | .hbm, ⟨41, _⟩ => ⟨S_, .f32⟩
  | .hbm, ⟨42, _⟩ => ⟨S32x17x768, .f32⟩
  | .hbm, ⟨43, _⟩ => ⟨S32x17x768, .f32⟩
  | .hbm, ⟨44, _⟩ => ⟨S32x16x768, .f32⟩
  | .hbm, ⟨45, _⟩ => ⟨S_, .f32⟩
  | .hbm, ⟨46, _⟩ => ⟨S32x16, .f32⟩
  | .hbm, ⟨47, _⟩ => ⟨S32x16x1, .f32⟩
  | .hbm, ⟨48, _⟩ => ⟨S_, .f32⟩
  | .hbm, ⟨49, _⟩ => ⟨S32x16x1, .f32⟩
  | .hbm, ⟨50, _⟩ => ⟨S32x16x1, .f32⟩
  | .hbm, ⟨51, _⟩ => ⟨S32x16x768, .f32⟩
  | .hbm, ⟨52, _⟩ => ⟨S32x16x768, .f32⟩
  | .hbm, ⟨53, _⟩ => ⟨S32x16x768, .f32⟩
  | .hbm, ⟨54, _⟩ => ⟨S_, .f32⟩
  | .hbm, ⟨55, _⟩ => ⟨S32x16, .f32⟩
  | .hbm, ⟨56, _⟩ => ⟨S32x16x1, .f32⟩
  | .hbm, ⟨57, _⟩ => ⟨S_, .f32⟩
  | .hbm, ⟨58, _⟩ => ⟨S32x16x1, .f32⟩
  | .hbm, ⟨59, _⟩ => ⟨S32x16x1, .f32⟩
  | .hbm, ⟨60, _⟩ => ⟨S32x16x768, .f32⟩
  | .hbm, ⟨61, _⟩ => ⟨S32x16x768, .f32⟩
  | .hbm, ⟨62, _⟩ => ⟨S_, .f32⟩
  | .hbm, ⟨63, _⟩ => ⟨S32x16x1, .f32⟩
  | .hbm, ⟨64, _⟩ => ⟨S32x16x1, .f32⟩
  | .hbm, ⟨65, _⟩ => ⟨S32x16x1, .f32⟩
  | .hbm, ⟨66, _⟩ => ⟨S32x16x768, .f32⟩
  | .hbm, ⟨67, _⟩ => ⟨S32x16x768, .f32⟩
  | .hbm, ⟨68, _⟩ => ⟨S1x1x768, .f32⟩
  | .hbm, ⟨69, _⟩ => ⟨S32x16x768, .f32⟩
  | .hbm, ⟨70, _⟩ => ⟨S32x16x768, .f32⟩
  | .hbm, ⟨71, _⟩ => ⟨S1x1x768, .f32⟩
  | .hbm, ⟨72, _⟩ => ⟨S32x16x768, .f32⟩
  | .hbm, ⟨73, _⟩ => ⟨S32x16x768, .f32⟩
  | .hbm, ⟨74, _⟩ => ⟨S32x16x200, .f32⟩
  | .hbm, ⟨75, _⟩ => ⟨S1x1x200, .f32⟩
  | .hbm, ⟨76, _⟩ => ⟨S32x16x200, .f32⟩
  | .hbm, ⟨77, _⟩ => ⟨S32x16x200, .f32⟩
  | .hbm, ⟨78, _⟩ => ⟨S_, .f32⟩
  | .hbm, ⟨79, _⟩ => ⟨S32x200, .f32⟩
  | .hbm, ⟨80, _⟩ => ⟨S_, .f32⟩
  | .hbm, ⟨81, _⟩ => ⟨S32x200, .f32⟩
  | .hbm, ⟨82, _⟩ => ⟨S32x200, .f32⟩
  | _, _ => ⟨S32x24x24x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]

class Facts₀ : Prop where
  shapeCasts_S32x24x24x768_S32x576x768 : S32x24x24x768.ShapeCasts S32x576x768
  reducesTo_S32x576x768_S32x576_d2 : S32x576x768.ReducesTo [2] S32x576
  h_S_ : 0 < S_.numel
  bcast_S32x576_S32x576x1_0_1 : S32x576.BroadcastsInDim S32x576x1 (![0, 1] : Fin 2 → Fin S32x576x1.rank)
  reducesTo_S17x768_S17_d1 : S17x768.ReducesTo [1] S17
  bcast_S_S32x576x17 : S_.BroadcastsInDim S32x576x17 (![] : Fin 0 → Fin S32x576x17.rank)
  bcast_S32x576x1_S32x576x17_0_1_2 : S32x576x1.BroadcastsInDim S32x576x17 (![0, 1, 2] : Fin 3 → Fin S32x576x17.rank)
  bcast_S17_S1x1x17_2 : S17.BroadcastsInDim S1x1x17 (![2] : Fin 1 → Fin S1x1x17.rank)
  bcast_S1x1x17_S32x576x17_0_1_2 : S1x1x17.BroadcastsInDim S32x576x17 (![0, 1, 2] : Fin 3 → Fin S32x576x17.rank)
  reducesTo_S32x576x17_S32x576_d2 : S32x576x17.ReducesTo [2] S32x576
  bcast_S_S32x576 : S_.BroadcastsInDim S32x576 (![] : Fin 0 → Fin S32x576.rank)
  transposes_S32x576x17_S32x17x576_0_2_1 : S32x576x17.Transposes [0, 2, 1] S32x17x576
  shapeCasts_S32x17x576_S32x17x24x24 : S32x17x576.ShapeCasts S32x17x24x24
  bcast_S_S32x17x768 : S_.BroadcastsInDim S32x17x768 (![] : Fin 0 → Fin S32x17x768.rank)
  slices_S32x17x768_S32x16x768_0_0_0 : S32x17x768.Slices ![0, 0, 0] S32x16x768
  reducesTo_S32x16x768_S32x16_d2 : S32x16x768.ReducesTo [2] S32x16
  bcast_S32x16_S32x16x1_0_1 : S32x16.BroadcastsInDim S32x16x1 (![0, 1] : Fin 2 → Fin S32x16x1.rank)
  bcast_S_S32x16x1 : S_.BroadcastsInDim S32x16x1 (![] : Fin 0 → Fin S32x16x1.rank)
  bcast_S32x16x1_S32x16x768_0_1_2 : S32x16x1.BroadcastsInDim S32x16x768 (![0, 1, 2] : Fin 3 → Fin S32x16x768.rank)
  bcast_S768_S1x1x768_2 : S768.BroadcastsInDim S1x1x768 (![2] : Fin 1 → Fin S1x1x768.rank)
  bcast_S1x1x768_S32x16x768_0_1_2 : S1x1x768.BroadcastsInDim S32x16x768 (![0, 1, 2] : Fin 3 → Fin S32x16x768.rank)
  bcast_S200_S1x1x200_2 : S200.BroadcastsInDim S1x1x200 (![2] : Fin 1 → Fin S1x1x200.rank)
  bcast_S1x1x200_S32x16x200_0_1_2 : S1x1x200.BroadcastsInDim S32x16x200 (![0, 1, 2] : Fin 3 → Fin S32x16x200.rank)
  reducesTo_S32x16x200_S32x200_d1 : S32x16x200.ReducesTo [1] S32x200
  bcast_S_S32x200 : S_.BroadcastsInDim S32x200 (![] : Fin 0 → Fin S32x200.rank)
  dot_S32x576x768_S17x768_S32x576x17_2_1_01_0_n_n_wf : DotDims.WF S32x576x768 S17x768 S32x576x17 [2] [1] [0, 1] [0] [] []
  dot_S32x576x17_S32x576x768_S32x17x768_1_1_2_2_0_0_wf : DotDims.WF S32x576x17 S32x576x768 S32x17x768 [1] [1] [2] [2] [0] [0]
  dot_S32x16x768_S768x200_S32x16x200_2_0_01_1_n_n_wf : DotDims.WF S32x16x768 S768x200 S32x16x200 [2] [0] [0, 1] [1] [] []

variable [Facts₀]

def dot_S32x576x768_S17x768_S32x576x17_2_1_01_0_n_n : DotDims S32x576x768 S17x768 S32x576x17 where
  lhsContracting := [2]
  rhsContracting := [1]
  lhsNonContracting := [0, 1]
  rhsNonContracting := [0]
  lhsBatch := []
  rhsBatch := []
  wf := dot_S32x576x768_S17x768_S32x576x17_2_1_01_0_n_n_wf
def dot_S32x576x17_S32x576x768_S32x17x768_1_1_2_2_0_0 : DotDims S32x576x17 S32x576x768 S32x17x768 where
  lhsContracting := [1]
  rhsContracting := [1]
  lhsNonContracting := [2]
  rhsNonContracting := [2]
  lhsBatch := [0]
  rhsBatch := [0]
  wf := dot_S32x576x17_S32x576x768_S32x17x768_1_1_2_2_0_0_wf
def dot_S32x16x768_S768x200_S32x16x200_2_0_01_1_n_n : DotDims S32x16x768 S768x200 S32x16x200 where
  lhsContracting := [2]
  rhsContracting := [0]
  lhsNonContracting := [0, 1]
  rhsNonContracting := [1]
  lhsBatch := []
  rhsBatch := []
  wf := dot_S32x16x768_S768x200_S32x16x200_2_0_01_1_n_n_wf

class Facts : Prop extends Facts₀ where

variable [Facts]
-- ==== Proof.ItemPayloads.lean ====
/-
  One image's head, as the body computes it.

  The body treats the four images of a block one after the other with the same operations: the prototype scores of the
  576 patches, their softmax, the transposed assignment map, the pooled and layer-normalised part features, the class
  scores and their average. Written out for the first image these are four vector-valued functions of the image's
  patch features and of the resident operands (transposed prototypes, their squared norms, scale, shift, classifier
  matrix and bias); for the three other images the body's values are the same four functions of that image's
  features — the same operations in the same order, so the identities hold by unfolding.
-/
import proofs.«171693_j11201274708047_2_alg».proof.Proof.Gen.KernelIdeal.Skeleton

set_option maxRecDepth 16384

noncomputable section

namespace Cert.KernelItem

open Idealize.ShloMosaic Cert.KernelIdeal Cert.KernelIdeal.Gen

variable {F : FTy → Type} [FloatOps F]

/-- The softmax assignment of one image's 576 patches to the 17 prototypes. -/
abbrev soft (pt : Vec F S768x17 .f32) (psq : Vec F S1x17 .f32) (xi : Vec F S1x576x768 .f32) : FVec F S576x17 .f32 :=
  k0_pay9 pt psq xi
/-- Its transpose, as the [1,17,576] piece of the map block. -/
abbrev mapsPiece (pt : Vec F S768x17 .f32) (psq : Vec F S1x17 .f32) (xi : Vec F S1x576x768 .f32) : FVec F S1x17x576 .f32 :=
  k0_pay10 pt psq xi
/-- The 16 layer-normalised pooled part features. -/
abbrev normedMat (g be : Vec F S1x768 .f32) (pt : Vec F S768x17 .f32) (psq : Vec F S1x17 .f32) (xi : Vec F S1x576x768 .f32) :
    FVec F S16x768 .f32 :=
  k0_pay12 (k0_pay4 g) (k0_pay5 be) (k0_pay8 xi) (k0_pay11 pt psq xi) (constant S17x768 .f32 0x00000000#32)
abbrev normedPiece (g be : Vec F S1x768 .f32) (pt : Vec F S768x17 .f32) (psq : Vec F S1x17 .f32) (xi : Vec F S1x576x768 .f32) :
    FVec F S1x16x768 .f32 :=
  k0_pay13 (k0_pay4 g) (k0_pay5 be) (k0_pay8 xi) (k0_pay11 pt psq xi) (constant S17x768 .f32 0x00000000#32)
/-- The 16 parts' class scores. -/
abbrev logitMat (g be : Vec F S1x768 .f32) (W : Vec F S768x200 .f32) (bc : Vec F S1x200 .f32) (pt : Vec F S768x17 .f32)
    (psq : Vec F S1x17 .f32) (xi : Vec F S1x576x768 .f32) : FVec F S16x200 .f32 :=
  k0_pay14 (k0_pay4 g) (k0_pay5 be) (k0_pay6 W) (k0_pay7 bc) (k0_pay8 xi) (k0_pay11 pt psq xi) (constant S17x768 .f32 0x00000000#32)
abbrev logitPiece (g be : Vec F S1x768 .f32) (W : Vec F S768x200 .f32) (bc : Vec F S1x200 .f32) (pt : Vec F S768x17 .f32)
    (psq : Vec F S1x17 .f32) (xi : Vec F S1x576x768 .f32) : FVec F S1x16x200 .f32 :=
  k0_pay15 (k0_pay4 g) (k0_pay5 be) (k0_pay6 W) (k0_pay7 bc) (k0_pay8 xi) (k0_pay11 pt psq xi) (constant S17x768 .f32 0x00000000#32)
/-- Their average over the 16 parts. -/
abbrev pooledPiece (g be : Vec F S1x768 .f32) (W : Vec F S768x200 .f32) (bc : Vec F S1x200 .f32) (pt : Vec F S768x17 .f32)
    (psq : Vec F S1x17 .f32) (xi : Vec F S1x576x768 .f32) : FVec F S1x1x200 .f32 :=
  k0_pay17 (k0_pay16 (k0_pay4 g) (k0_pay5 be) (k0_pay6 W) (k0_pay7 bc) (k0_pay8 xi) (k0_pay11 pt psq xi) (constant S17x768 .f32 0x00000000#32))

variable (g be : Vec F S1x768 .f32) (W : Vec F S768x200 .f32) (bc : Vec F S1x200 .f32) (pt : Vec F S768x17 .f32)
  (psq : Vec F S1x17 .f32) (xi : Vec F S1x576x768 .f32)

/-! ## The second, third and fourth image: the same functions -/

theorem maps_second : k0_pay20 (k0_pay2 pt) (k0_pay3 psq) xi = mapsPiece pt psq xi := rfl
theorem maps_third : k0_pay33 (k0_pay31 (k0_pay2 pt) (k0_pay3 psq) xi) = mapsPiece pt psq xi := rfl
theorem maps_fourth : k0_pay41 (k0_pay2 pt) (k0_pay3 psq) xi = mapsPiece pt psq xi := rfl

theorem normed_second : k0_pay26 (k0_pay4 g) (k0_pay5 be) (k0_pay23 (k0_pay2 pt) (k0_pay3 psq) xi) (k0_pay24 (k0_pay2 pt) (k0_pay3 psq) xi)
    = normedPiece g be pt psq xi := rfl
theorem normed_third : k0_pay35 (k0_pay4 g) (k0_pay5 be) (k0_pay30 xi) (k0_pay31 (k0_pay2 pt) (k0_pay3 psq) xi)
    = normedPiece g be pt psq xi := rfl
theorem normed_fourth : k0_pay44 (k0_pay4 g) (k0_pay5 be) (k0_pay42 (k0_pay2 pt) (k0_pay3 psq) xi) = normedPiece g be pt psq xi := rfl

theorem logit_second : k0_pay28 (k0_pay4 g) (k0_pay5 be) (k0_pay6 W) (k0_pay7 bc) (k0_pay23 (k0_pay2 pt) (k0_pay3 psq) xi)
    (k0_pay24 (k0_pay2 pt) (k0_pay3 psq) xi) = logitPiece g be W bc pt psq xi := rfl
theorem logit_third : k0_pay37 (k0_pay36 (k0_pay4 g) (k0_pay5 be) (k0_pay6 W) (k0_pay7 bc) (k0_pay30 xi)
    (k0_pay31 (k0_pay2 pt) (k0_pay3 psq) xi)) = logitPiece g be W bc pt psq xi := rfl
theorem logit_fourth : k0_pay46 (k0_pay4 g) (k0_pay5 be) (k0_pay6 W) (k0_pay7 bc) (k0_pay42 (k0_pay2 pt) (k0_pay3 psq) xi)
    = logitPiece g be W bc pt psq xi := rfl

theorem pooled_second : k0_pay29 (k0_pay4 g) (k0_pay5 be) (k0_pay6 W) (k0_pay7 bc) (k0_pay23 (k0_pay2 pt) (k0_pay3 psq) xi)
    (k0_pay24 (k0_pay2 pt) (k0_pay3 psq) xi) = pooledPiece g be W bc pt psq xi := rfl
theorem pooled_third : k0_pay38 (k0_pay36 (k0_pay4 g) (k0_pay5 be) (k0_pay6 W) (k0_pay7 bc) (k0_pay30 xi)
    (k0_pay31 (k0_pay2 pt) (k0_pay3 psq) xi)) = pooledPiece g be W bc pt psq xi := rfl
theorem pooled_fourth : k0_pay1 (k0_pay47 (k0_pay4 g) (k0_pay5 be) (k0_pay6 W) (k0_pay7 bc) (k0_pay42 (k0_pay2 pt) (k0_pay3 psq) xi))
    = pooledPiece g be W bc pt psq xi := rfl

end Cert.KernelItem

end
-- ==== Proof.PartModel.lean ====
/-
  The mathematics of the part-discovery head, index by index on the extended reals.

  For image b (of 32) a patch p (of 576 = 24·24, row-major over the 24×24 grid) has features x(b,p,·) in ℝ^768; there are 17
  prototype vectors P(k,·).  Every patch is assigned softly to the prototypes by a softmax over k of a score; the
  assignment map is laid out as 32×17×24×24; the 16 foreground prototypes pool the patch features with their
  assignment weights (divided by 576), each pooled vector is layer-normalised over its 768 features (mean, centred
  second moment, reciprocal square root with an additive word eps, scale gamma and shift beta), mapped by a 768×200
  matrix plus a bias to 200 class scores, and the 16 parts' scores are averaged.

  Two scores are written down: 2·⟨x,P_k⟩ − |P_k|² and −((|x|² − 2·⟨x,P_k⟩) + |P_k|²).  They differ by the patch's own
  |x|², the same for all k, and a softmax does not see a shift common to its scores — as long as that shift is a
  real number (module SoftmaxScores).  Everything after the softmax is one and the same function of the assignment.

  The float words (2.0, 576.0, 768.0, 16.0, eps, −inf, 0) are kept as the words they are: the same word stands on
  both sides and is never evaluated, except −inf (the maximum's start) and 0 (a sum's start).
-/
import Idealize.ShloMosaic.PureOps.Ideal
import Idealize.ShloMosaic.Lib.ValueIdx

noncomputable section

namespace Cert.PartModel

open Idealize.ShloMosaic Idealize.ShloMosaic.ValueIdx

/-! ## The arrays' shapes -/

abbrev ShX : Shape := ⟨4, ![32, 24, 24, 768]⟩
abbrev ShP : Shape := ⟨2, ![17, 768]⟩
abbrev ShD : Shape := ⟨1, ![768]⟩
abbrev ShW : Shape := ⟨2, ![768, 200]⟩
abbrev ShC : Shape := ⟨1, ![200]⟩
abbrev ShA : Shape := ⟨4, ![32, 17, 24, 24]⟩
abbrev ShV : Shape := ⟨3, ![32, 16, 768]⟩
abbrev ShL : Shape := ⟨3, ![32, 16, 200]⟩
abbrev ShG : Shape := ⟨2, ![32, 200]⟩

/-! ## The float words -/

def two : EReal := Ideal.ofBits .f32 0x40000000#32
def negInf : EReal := Ideal.ofBits .f32 0xFF800000#32
def c576 : EReal := Ideal.ofBits .f32 0x44100000#32
def c768 : EReal := Ideal.ofBits .f32 0x44400000#32
def c16 : EReal := Ideal.ofBits .f32 0x41800000#32
def eps : EReal := Ideal.ofBits .f32 0x358637BD#32

/-! ## Patches, scores, the softmax -/

/-- Row p / 24, column p % 24 of the 24×24 grid. -/
def rowOf (p : Fin 576) : Fin 24 := ⟨p.val / 24, by have := p.isLt; omega⟩
def colOf (p : Fin 576) : Fin 24 := ⟨p.val % 24, by omega⟩
/-- Patch number 24·h + w. -/
def patchOf (h w : Fin 24) : Fin 576 := ⟨h.val * 24 + w.val, by have := h.isLt; have := w.isLt; omega⟩

/-- Feature d of patch p of image b. -/
def patch (x : ShX.Idx → EReal) (b : Fin 32) (p : Fin 576) (d : Fin 768) : EReal := x (ix4 b (rowOf p) (colOf p) d)

/-- ⟨x(b,p,·), P(k,·)⟩. -/
def inner (x : ShX.Idx → EReal) (P : ShP.Idx → EReal) (b : Fin 32) (p : Fin 576) (k : Fin 17) : EReal :=
  ∑ d : Fin 768, patch x b p d * P (ix2 k d)
/-- |P(k,·)|². -/
def protoSq (P : ShP.Idx → EReal) (k : Fin 17) : EReal := ∑ d : Fin 768, P (ix2 k d) * P (ix2 k d)
/-- |x(b,p,·)|². -/
def patchSq (x : ShX.Idx → EReal) (b : Fin 32) (p : Fin 576) : EReal := ∑ d : Fin 768, patch x b p d * patch x b p d

/-- The score without the patch's own norm: 2·⟨x,P_k⟩ − |P_k|². -/
def scoreShort (x : ShX.Idx → EReal) (P : ShP.Idx → EReal) (b : Fin 32) (p : Fin 576) (k : Fin 17) : EReal :=
  two * inner x P b p k - protoSq P k
/-- Minus the squared distance, expanded: −((|x|² − 2·⟨x,P_k⟩) + |P_k|²). -/
def scoreDist (x : ShX.Idx → EReal) (P : ShP.Idx → EReal) (b : Fin 32) (p : Fin 576) (k : Fin 17) : EReal :=
  -((patchSq x b p - two * inner x P b p k) + protoSq P k)

/-- The largest of 17 scores, started at the word −inf. -/
def top (s : Fin 17 → EReal) : EReal := (Finset.univ : Finset (Fin 17)).fold max negInf s
/-- The softmax of 17 scores, shifted by their maximum first. -/
def softmax (s : Fin 17 → EReal) (k : Fin 17) : EReal :=
  Ideal.div (Ideal.exp (s k - top s)) (∑ j : Fin 17, Ideal.exp (s j - top s))

/-- An assignment of every patch of every image to the 17 prototypes. -/
abbrev Assign := Fin 32 → Fin 576 → Fin 17 → EReal

def assignShort (x : ShX.Idx → EReal) (P : ShP.Idx → EReal) : Assign := fun b p => softmax (scoreShort x P b p)
def assignDist (x : ShX.Idx → EReal) (P : ShP.Idx → EReal) : Assign := fun b p => softmax (scoreDist x P b p)

/-! ## After the softmax -/

/-- Part k's pooled feature d: Σ_p a(b,p,k)·x(b,p,d), over 576. -/
def pooled (a : Assign) (x : ShX.Idx → EReal) (b : Fin 32) (k : Fin 17) (d : Fin 768) : EReal :=
  Ideal.div (∑ p : Fin 576, a b p k * patch x b p d) c576
/-- Foreground part k is prototype k (the 17th, the background, is dropped). -/
def fgOf (k : Fin 16) : Fin 17 := ⟨k.val, by have := k.isLt; omega⟩
def fg (a : Assign) (x : ShX.Idx → EReal) (b : Fin 32) (k : Fin 16) (d : Fin 768) : EReal := pooled a x b (fgOf k) d
def mean (a : Assign) (x : ShX.Idx → EReal) (b : Fin 32) (k : Fin 16) : EReal :=
  Ideal.div (∑ d : Fin 768, fg a x b k d) c768
def centred (a : Assign) (x : ShX.Idx → EReal) (b : Fin 32) (k : Fin 16) (d : Fin 768) : EReal := fg a x b k d - mean a x b k
def variance (a : Assign) (x : ShX.Idx → EReal) (b : Fin 32) (k : Fin 16) : EReal :=
  Ideal.div (∑ d : Fin 768, centred a x b k d * centred a x b k d) c768
/-- The layer-normalised pooled feature. -/
def normed (a : Assign) (x : ShX.Idx → EReal) (g be : ShD.Idx → EReal) (b : Fin 32) (k : Fin 16) (d : Fin 768) : EReal :=
  centred a x b k d * Ideal.rsqrt (variance a x b k + eps) * g (ix1 d) + be (ix1 d)
/-- Class score c of part k. -/
def logit (a : Assign) (x : ShX.Idx → EReal) (g be : ShD.Idx → EReal) (W : ShW.Idx → EReal) (bc : ShC.Idx → EReal)
    (b : Fin 32) (k : Fin 16) (c : Fin 200) : EReal :=
  (∑ d : Fin 768, normed a x g be b k d * W (ix2 d c)) + bc (ix1 c)
/-- The parts' average. -/
def pooledLogit (a : Assign) (x : ShX.Idx → EReal) (g be : ShD.Idx → EReal) (W : ShW.Idx → EReal) (bc : ShC.Idx → EReal)
    (b : Fin 32) (c : Fin 200) : EReal :=
  Ideal.div (∑ k : Fin 16, logit a x g be W bc b k c) c16

/-! ## The four results as arrays -/

def outMaps (a : Assign) : ShA.Idx → EReal := fun i => a (i 0) (patchOf (i 2) (i 3)) (i 1)
def outNormed (a : Assign) (x : ShX.Idx → EReal) (g be : ShD.Idx → EReal) : ShV.Idx → EReal :=
  fun i => normed a x g be (i 0) (i 1) (i 2)
def outLogits (a : Assign) (x : ShX.Idx → EReal) (g be : ShD.Idx → EReal) (W : ShW.Idx → EReal) (bc : ShC.Idx → EReal) :
    ShL.Idx → EReal := fun i => logit a x g be W bc (i 0) (i 1) (i 2)
def outPooled (a : Assign) (x : ShX.Idx → EReal) (g be : ShD.Idx → EReal) (W : ShW.Idx → EReal) (bc : ShC.Idx → EReal) :
    ShG.Idx → EReal := fun i => pooledLogit a x g be W bc (i 0) (i 1)

end Cert.PartModel

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.ItemSoftmax.lean ====
/-
  The assignment of one image read at a patch and a prototype.

  Row p of the score matrix is 2·⟨x_p, P_k⟩ − |P_k|² over the 17 prototypes k: the matrix product of the patch
  features with the transposed prototypes, doubled, minus the row of squared norms copied into every row. The body
  then takes each row's maximum (a column, copied back along the row), subtracts it, exponentiates, sums each row
  (again a column copied along the row) and divides: row p of the result is the softmax of row p of the scores. The
  map piece is the transpose of that matrix under a leading unit axis.
-/
import proofs.«171693_j11201274708047_2_alg».proof.Proof.Gen.KernelIdeal.Skeleton
import proofs.«171693_j11201274708047_2_alg».proof.Proof.ItemPayloads
import proofs.«171693_j11201274708047_2_alg».proof.Proof.PartModel
import proofs.«171693_j11201274708047_2_alg».proof.Proof.LibPlainMatmul
import proofs.«171693_j11201274708047_2_alg».proof.Proof.LibMergedAxes
import Idealize.ShloMosaic.Lib.ValueLayout
import Idealize.ShloMosaic.Lib.Pipeline.Value
import Idealize.ShloMosaic.PureOps.Ideal.Laws

set_option maxRecDepth 16384

noncomputable section

namespace Cert.KernelItem

open Idealize.ShloMosaic Idealize.ShloMosaic.ValueIdx Cert.KernelIdeal Cert.KernelIdeal.Gen

/-- A row-wise softmax spelt with vector operations: the row maximum and the row sum each reduced to a vector,
    kept as a column and copied back along the rows. -/
theorem softRows_at (s : FVec Ideal S576x17 .f32) (hR : S576x17.Reduces [1] S576) (hC : S576.ShapeCasts S576x1)
    (hB : S576x1.Broadcasts S576x17) (hφ : FKind.Formats .f32) (hm : (0xFF800000#32 : BitVec 32) = FKind.maximumf.neutral .f32 hφ)
    (ha : (0x00000000#32 : BitVec 32) = FKind.add.neutral .f32 hφ) (p : Fin 576) (k : Fin 17) :
    (divf (exp (subf s (broadcastTo S576x17 (shapeCast S576x1 (multiReduction .maximumf [1] S576 s 0xFF800000#32 hR hφ hm) hC) hB)))
      (broadcastTo S576x17 (shapeCast S576x1 (multiReduction .add [1] S576
        (exp (subf s (broadcastTo S576x17 (shapeCast S576x1 (multiReduction .maximumf [1] S576 s 0xFF800000#32 hR hφ hm) hC) hB)))
        0x00000000#32 hR hφ ha) hC) hB) : FVec Ideal S576x17 .f32) (ix2 p k)
      = Cert.PartModel.softmax (fun k' => s (ix2 p k')) k := by
  have htop : ∀ k' : Fin 17, (broadcastTo S576x17 (shapeCast S576x1 (multiReduction .maximumf [1] S576 s 0xFF800000#32 hR hφ hm) hC) hB
      : FVec Ideal S576x17 .f32) (ix2 p k') = Cert.PartModel.top (fun k'' => s (ix2 p k'')) := fun k' => by
    rw [Cert.LibMergedAxes.broadcastTo_a1_ab_apply, Cert.LibMergedAxes.shapeCast_a_a1_apply, Ideal.multiReduction_maximumf_single]
    unfold Cert.PartModel.top Cert.PartModel.negInf
    refine congrArg (fun f => (Finset.univ : Finset (Fin 17)).fold max (Ideal.ofBits .f32 0xFF800000#32) f) (funext fun k'' => ?_)
    exact congrArg s (funext fun a => Fin.ext (by match a with | ⟨0, _⟩ => rfl | ⟨1, _⟩ => rfl))
  show Ideal.div (Ideal.exp (s (ix2 p k) - _)) _ = _
  rw [htop k, Cert.LibMergedAxes.broadcastTo_a1_ab_apply, Cert.LibMergedAxes.shapeCast_a_a1_apply, Ideal.multiReduction_add_single]
  unfold Cert.PartModel.softmax
  refine congrArg (Ideal.div _) (Finset.sum_congr rfl fun (k' : Fin 17) _ => ?_)
  have hl : (hR.lift (ix1 p) k' : S576x17.Idx) = ix2 p k' :=
    funext fun a => Fin.ext (by match a with | ⟨0, _⟩ => rfl | ⟨1, _⟩ => rfl)
  show Ideal.exp (s (hR.lift (ix1 p) k') - (broadcastTo S576x17 (shapeCast S576x1 (multiReduction .maximumf [1] S576 s 0xFF800000#32 hR hφ hm) hC) hB
      : FVec Ideal S576x17 .f32) (hR.lift (ix1 p) k')) = _
  rw [hl, htop k']

variable (pt : Vec Ideal S768x17 .f32) (psq : Vec Ideal S1x17 .f32) (xi : Vec Ideal S1x576x768 .f32)

/-- The score matrix: twice the product of the patch features with the transposed prototypes, minus the squared norms. -/
abbrev scoreMat : FVec Ideal S576x17 .f32 :=
  subf (mulf (broadcast S576x17 (Scalar.ofBits .f32 0x40000000#32))
    (matmul dot_S576x768_S768x17_S576x17_1_0_0_1_n_n none (k0_pay8 xi) (k0_pay2 pt) (constant S576x17 .f32 0x00000000#32)))
    (broadcastTo S576x17 (k0_pay3 psq) broadcasts_S1x17_S576x17)

/-- The image's patch p, feature d, as the product's left operand. -/
theorem features_at (p : Fin 576) (d : Fin 768) : (k0_pay8 xi : FVec Ideal S576x768 .bf16) (ix2 p d) = xi (ix3 (0 : Fin 1) p d) :=
  shapeCast_1ab_ab_apply xi shapeCasts_S1x576x768_S576x768 p d

/-- The transposed prototypes, as its right operand. -/
theorem protoT_eq : (k0_pay2 pt : FVec Ideal S768x17 .bf16) = pt := shapeCast_self pt shapeCasts_S768x17_S768x17
theorem protoSqRow_eq : (k0_pay3 psq : FVec Ideal S1x17 .f32) = psq := shapeCast_self psq shapeCasts_S1x17_S1x17

theorem scoreMat_at (p : Fin 576) (k : Fin 17) :
    scoreMat pt psq xi (ix2 p k)
      = Cert.PartModel.two * (∑ d : Fin 768, xi (ix3 (0 : Fin 1) p d) * pt (ix2 d k)) - psq (ix2 (0 : Fin 1) k) := by
  show Ideal.ofBits .f32 0x40000000#32
      * (matmul dot_S576x768_S768x17_S576x17_1_0_0_1_n_n none (k0_pay8 xi) (k0_pay2 pt) (constant S576x17 .f32 0x00000000#32)
          : FVec Ideal S576x17 .f32) (ix2 p k)
      - (broadcastTo S576x17 (k0_pay3 psq) broadcasts_S1x17_S576x17 : FVec Ideal S576x17 .f32) (ix2 p k) = _
  rw [broadcastTo_1b_ab_apply, protoSqRow_eq,
    show (matmul dot_S576x768_S768x17_S576x17_1_0_0_1_n_n none (k0_pay8 xi) (k0_pay2 pt) (constant S576x17 .f32 0x00000000#32)
        : FVec Ideal S576x17 .f32) (ix2 p k) = ∑ d : Fin 768, (k0_pay8 xi : FVec Ideal S576x768 .bf16) (ix2 p d) * (k0_pay2 pt : FVec Ideal S768x17 .bf16) (ix2 d k)
      from PlainMatmul.apply_zero (M := 576) (K := 768) (N := 17) (k0_pay8 xi) (k0_pay2 pt) p k,
    protoT_eq]
  simp only [features_at]
  rfl

/-- The assignment of patch p to prototype k: the softmax over k of row p of the scores. -/
theorem soft_at (p : Fin 576) (k : Fin 17) :
    soft (F := Ideal) pt psq xi (ix2 p k)
      = Cert.PartModel.softmax (fun k' => Cert.PartModel.two * (∑ d : Fin 768, xi (ix3 (0 : Fin 1) p d) * pt (ix2 d k'))
          - psq (ix2 (0 : Fin 1) k')) k := by
  refine (softRows_at (scoreMat pt psq xi) reduces_S576x17_S576 shapeCasts_S576_S576x1 broadcasts_S576x1_S576x17 (.inl rfl) rfl rfl p k).trans ?_
  exact congrArg (fun s => Cert.PartModel.softmax s k) (funext fun k' => scoreMat_at pt psq xi p k')

/-- The map piece holds the transposed assignment. -/
theorem mapsPiece_at (u : Fin 1) (k : Fin 17) (p : Fin 576) :
    mapsPiece (F := Ideal) pt psq xi (ix3 u k p) = soft (F := Ideal) pt psq xi (ix2 p k) := by
  show (shapeCast S1x17x576 (transpose S17x576 [1, 0] (k0_pay9 pt psq xi) transposes_S576x17_p1_0_S17x576) shapeCasts_S17x576_S1x17x576
    : FVec Ideal S1x17x576 .f32) (ix3 u k p) = _
  rw [shapeCast_ab_1ab_apply, transpose_ix2_apply]

end Cert.KernelItem

end
-- ==== Proof.ItemModel.lean ====
/-
  One image's head after the softmax, index by index: the same formulas as the whole model's, for a single image
  given by its assignment A (576 patches × 17 prototypes) and its patch features X (576 × 768).
-/
import proofs.«171693_j11201274708047_2_alg».proof.Proof.PartModel

set_option maxRecDepth 16384

noncomputable section

namespace Cert.ItemModel

open Idealize.ShloMosaic Idealize.ShloMosaic.ValueIdx Cert.PartModel

variable (A : Fin 576 → Fin 17 → EReal) (X : Fin 576 → Fin 768 → EReal) (G B : Fin 768 → EReal)
  (W : Fin 768 → Fin 200 → EReal) (Bc : Fin 200 → EReal)

def pooled (k : Fin 17) (d : Fin 768) : EReal := Ideal.div (∑ p : Fin 576, A p k * X p d) c576
def fg (k : Fin 16) (d : Fin 768) : EReal := pooled A X (fgOf k) d
def mean (k : Fin 16) : EReal := Ideal.div (∑ d : Fin 768, fg A X k d) c768
def centred (k : Fin 16) (d : Fin 768) : EReal := fg A X k d - mean A X k
def variance (k : Fin 16) : EReal := Ideal.div (∑ d : Fin 768, centred A X k d * centred A X k d) c768
def normed (k : Fin 16) (d : Fin 768) : EReal := centred A X k d * Ideal.rsqrt (variance A X k + eps) * G d + B d
def logit (k : Fin 16) (c : Fin 200) : EReal := (∑ d : Fin 768, normed A X G B k d * W d c) + Bc c
def pooledLogit (c : Fin 200) : EReal := Ideal.div (∑ k : Fin 16, logit A X G B W Bc k c) c16

/-! The whole model's formulas are these, image by image. -/

theorem normed_eq (a : Assign) (x : ShX.Idx → EReal) (g be : ShD.Idx → EReal) (b : Fin 32) (k : Fin 16) (d : Fin 768) :
    Cert.PartModel.normed a x g be b k d = normed (a b) (patch x b) (fun d => g (ix1 d)) (fun d => be (ix1 d)) k d := rfl
theorem logit_eq (a : Assign) (x : ShX.Idx → EReal) (g be : ShD.Idx → EReal) (Wm : ShW.Idx → EReal) (bc : ShC.Idx → EReal)
    (b : Fin 32) (k : Fin 16) (c : Fin 200) :
    Cert.PartModel.logit a x g be Wm bc b k c
      = logit (a b) (patch x b) (fun d => g (ix1 d)) (fun d => be (ix1 d)) (fun d c => Wm (ix2 d c)) (fun c => bc (ix1 c)) k c := rfl
theorem pooledLogit_eq (a : Assign) (x : ShX.Idx → EReal) (g be : ShD.Idx → EReal) (Wm : ShW.Idx → EReal) (bc : ShC.Idx → EReal)
    (b : Fin 32) (c : Fin 200) :
    Cert.PartModel.pooledLogit a x g be Wm bc b c
      = pooledLogit (a b) (patch x b) (fun d => g (ix1 d)) (fun d => be (ix1 d)) (fun d c => Wm (ix2 d c)) (fun c => bc (ix1 c)) c := rfl

end Cert.ItemModel

end
-- ==== Proof.ItemHead.lean ====
/-
  One image's head after the softmax, read at an index.

  The body pools the patch features with the assignment weights by a matrix product that contracts the patch axis of
  both operands (entry (k, d) is Σ_p a(p,k)·x(p,d)), divides by the word 576, keeps the 16 foreground rows, and
  layer-normalises each row over its 768 features: the row's mean (row sum over the word 768) kept as a column and
  copied along the row, the centred second moment likewise, the reciprocal square root of that plus the word eps,
  times the scale row, plus the shift row.  The class scores are a plain matrix product with the 768×200 matrix plus
  the bias row, and their average over the 16 parts is a sum down the columns over the word 16.  Read at an index
  these are the per-image formulas of the model.
-/
import proofs.«171693_j11201274708047_2_alg».proof.Proof.Gen.KernelIdeal.Skeleton
import proofs.«171693_j11201274708047_2_alg».proof.Proof.ItemPayloads
import proofs.«171693_j11201274708047_2_alg».proof.Proof.ItemModel
import proofs.«171693_j11201274708047_2_alg».proof.Proof.LibPlainMatmul
import proofs.«171693_j11201274708047_2_alg».proof.Proof.LibMergedAxes
import Idealize.ShloMosaic.Lib.ValueLayout
import Idealize.ShloMosaic.Lib.Pipeline.Value
import Idealize.ShloMosaic.PureOps.Ideal.Laws

set_option maxRecDepth 16384

noncomputable section

namespace Cert.KernelItem

open Idealize.ShloMosaic Idealize.ShloMosaic.ValueIdx Cert.KernelIdeal Cert.KernelIdeal.Gen

/-! ## Generic pieces -/

/-- The pooling product: both operands contracted over their patch axis, into a zero accumulator.  Entry (k, d) is
    Σ_p lhs(p, k) · rhs(p, d). -/
theorem poolMatmul_apply {φ₁ φ₂ : FTy} (lhs : FVec Ideal S576x17 φ₁) (rhs : FVec Ideal S576x768 φ₂) (k : Fin 17) (d : Fin 768) :
    (matmul dot_S576x17_S576x768_S17x768_0_0_1_1_n_n none lhs rhs (constant S17x768 .f32 0x00000000#32)
        : FVec Ideal S17x768 .f32) (ix2 k d)
      = ∑ p : Fin 576, lhs (ix2 p k) * rhs (ix2 p d) := by
  show FloatOps.matmul dot_S576x17_S576x768_S17x768_0_0_1_1_n_n none lhs rhs (constant (F := Ideal) S17x768 .f32 0x00000000#32) (ix2 k d) = _
  rw [Ideal.matmul_constant_zero_apply,
    ← Equiv.sum_comp (contrEquiv1 dot_S576x17_S576x768_S17x768_0_0_1_1_n_n 576 rfl rfl).symm]
  refine Finset.sum_congr rfl fun p _ => ?_
  have hp := contrEquiv1_symm_val dot_S576x17_S576x768_S17x768_0_0_1_1_n_n 576 rfl rfl p
  have el : dot_S576x17_S576x768_S17x768_0_0_1_1_n_n.lhsIdx (ix2 k d)
      ((contrEquiv1 dot_S576x17_S576x768_S17x768_0_0_1_1_n_n 576 rfl rfl).symm p) = ix2 p k :=
    funext fun a => Fin.ext (by
      match a with
      | ⟨0, _⟩ => exact (dot_S576x17_S576x768_S17x768_0_0_1_1_n_n.lhsIdx_val_of_single rfl _ _).trans hp
      | ⟨1, _⟩ =>
        unfold DotDims.lhsIdx
        rw [dif_neg (show ¬(⟨1, by decide⟩ : Fin S576x17.rank) ∈ dot_S576x17_S576x768_S17x768_0_0_1_1_n_n.lhsBatch from List.not_mem_nil),
          dif_pos (show (⟨1, by decide⟩ : Fin S576x17.rank) ∈ dot_S576x17_S576x768_S17x768_0_0_1_1_n_n.lhsNonContracting from List.mem_singleton.mpr rfl)]
        rfl)
  have er : dot_S576x17_S576x768_S17x768_0_0_1_1_n_n.rhsIdx (ix2 k d)
      ((contrEquiv1 dot_S576x17_S576x768_S17x768_0_0_1_1_n_n 576 rfl rfl).symm p) = ix2 p d :=
    funext fun a => Fin.ext (by
      match a with
      | ⟨0, _⟩ => exact (dot_S576x17_S576x768_S17x768_0_0_1_1_n_n.rhsIdx_val_of_single rfl _ _).trans hp
      | ⟨1, _⟩ =>
        unfold DotDims.rhsIdx
        rw [dif_neg (show ¬(⟨1, by decide⟩ : Fin S576x768.rank) ∈ dot_S576x17_S576x768_S17x768_0_0_1_1_n_n.rhsBatch from List.not_mem_nil),
          dif_pos (show (⟨1, by decide⟩ : Fin S576x768.rank) ∈ dot_S576x17_S576x768_S17x768_0_0_1_1_n_n.rhsNonContracting from List.mem_singleton.mpr rfl)]
        rfl)
  rw [el, er]

/-- Row sums of a 16×768 matrix kept as a column: entry (k, ·) is Σ_d w(k, d). -/
theorem rowSumCol_at (w : FVec Ideal S16x768 .f32) (hR : S16x768.Reduces [1] S16) (hC : S16.ShapeCasts S16x1)
    (hφ : FKind.Formats .f32) (ha : (0x00000000#32 : BitVec 32) = FKind.add.neutral .f32 hφ) (k : Fin 16) (u : Fin 1) :
    (shapeCast S16x1 (multiReduction .add [1] S16 w 0x00000000#32 hR hφ ha) hC : FVec Ideal S16x1 .f32) (ix2 k u)
      = ∑ d : Fin 768, w (ix2 k d) := by
  rw [Cert.LibMergedAxes.shapeCast_a_a1_apply, Ideal.multiReduction_add_single]
  refine Finset.sum_congr rfl fun (d : Fin 768) _ => ?_
  exact congrArg w (funext fun a => Fin.ext (by match a with | ⟨0, _⟩ => rfl | ⟨1, _⟩ => rfl))

/-- The reciprocal square root at an index is the element's. -/
theorem rsqrt_apply {s : Shape} {φ : FTy} (a : FVec Ideal s φ) (i : s.Idx) : rsqrt a i = Ideal.rsqrt (a i) := rfl

/-- The column of row means of a 16×768 matrix: row sums over the word 768. -/
abbrev meanCol (v : FVec Ideal S16x768 .f32) (hR : S16x768.Reduces [1] S16) (hC : S16.ShapeCasts S16x1)
    (hφ : FKind.Formats .f32) (ha : (0x00000000#32 : BitVec 32) = FKind.add.neutral .f32 hφ) : FVec Ideal S16x1 .f32 :=
  divf (shapeCast S16x1 (multiReduction .add [1] S16 v 0x00000000#32 hR hφ ha) hC) (broadcast S16x1 (Scalar.ofBits .f32 0x44400000#32))

theorem meanCol_at (v : FVec Ideal S16x768 .f32) (hR : S16x768.Reduces [1] S16) (hC : S16.ShapeCasts S16x1)
    (hφ : FKind.Formats .f32) (ha : (0x00000000#32 : BitVec 32) = FKind.add.neutral .f32 hφ) (k : Fin 16) (u : Fin 1) :
    meanCol v hR hC hφ ha (ix2 k u) = Ideal.div (∑ e : Fin 768, v (ix2 k e)) Cert.PartModel.c768 := by
  show Ideal.div ((shapeCast S16x1 (multiReduction .add [1] S16 v 0x00000000#32 hR hφ ha) hC : FVec Ideal S16x1 .f32) (ix2 k u))
    (Ideal.ofBits .f32 0x44400000#32) = _
  rw [rowSumCol_at]
  rfl

/-- The matrix with each row's mean subtracted. -/
abbrev centredMat (v : FVec Ideal S16x768 .f32) (hR : S16x768.Reduces [1] S16) (hC : S16.ShapeCasts S16x1)
    (hB : S16x1.Broadcasts S16x768) (hφ : FKind.Formats .f32) (ha : (0x00000000#32 : BitVec 32) = FKind.add.neutral .f32 hφ) :
    FVec Ideal S16x768 .f32 :=
  subf v (broadcastTo S16x768 (meanCol v hR hC hφ ha) hB)

theorem centredMat_at (v : FVec Ideal S16x768 .f32) (hR : S16x768.Reduces [1] S16) (hC : S16.ShapeCasts S16x1)
    (hB : S16x1.Broadcasts S16x768) (hφ : FKind.Formats .f32) (ha : (0x00000000#32 : BitVec 32) = FKind.add.neutral .f32 hφ)
    (k : Fin 16) (d : Fin 768) :
    centredMat v hR hC hB hφ ha (ix2 k d) = v (ix2 k d) - Ideal.div (∑ e : Fin 768, v (ix2 k e)) Cert.PartModel.c768 := by
  show v (ix2 k d) - (broadcastTo S16x768 (meanCol v hR hC hφ ha) hB : FVec Ideal S16x768 .f32) (ix2 k d) = _
  rw [Cert.LibMergedAxes.broadcastTo_a1_ab_apply, meanCol_at]

/-- Row-wise layer normalisation spelt with vector operations: centred, times the reciprocal square root of the
    centred second moment plus eps, times the scale row, plus the shift row. -/
abbrev layerNormMat (v : FVec Ideal S16x768 .f32) (g be : FVec Ideal S1x768 .f32) (hR : S16x768.Reduces [1] S16)
    (hC : S16.ShapeCasts S16x1) (hB : S16x1.Broadcasts S16x768) (hG : S1x768.Broadcasts S16x768)
    (hφ : FKind.Formats .f32) (ha : (0x00000000#32 : BitVec 32) = FKind.add.neutral .f32 hφ) : FVec Ideal S16x768 .f32 :=
  addf (mulf (mulf (centredMat v hR hC hB hφ ha)
      (broadcastTo S16x768 (rsqrt (addf (meanCol (mulf (centredMat v hR hC hB hφ ha) (centredMat v hR hC hB hφ ha)) hR hC hφ ha)
        (broadcast S16x1 (Scalar.ofBits .f32 0x358637BD#32)))) hB))
    (broadcastTo S16x768 g hG)) (broadcastTo S16x768 be hG)

theorem layerNormMat_at (v : FVec Ideal S16x768 .f32) (g be : FVec Ideal S1x768 .f32) (hR : S16x768.Reduces [1] S16)
    (hC : S16.ShapeCasts S16x1) (hB : S16x1.Broadcasts S16x768) (hG : S1x768.Broadcasts S16x768)
    (hφ : FKind.Formats .f32) (ha : (0x00000000#32 : BitVec 32) = FKind.add.neutral .f32 hφ) (k : Fin 16) (d : Fin 768) :
    layerNormMat v g be hR hC hB hG hφ ha (ix2 k d)
      = (v (ix2 k d) - Ideal.div (∑ e : Fin 768, v (ix2 k e)) Cert.PartModel.c768)
          * Ideal.rsqrt (Ideal.div (∑ e : Fin 768,
              (v (ix2 k e) - Ideal.div (∑ e' : Fin 768, v (ix2 k e')) Cert.PartModel.c768)
                * (v (ix2 k e) - Ideal.div (∑ e' : Fin 768, v (ix2 k e')) Cert.PartModel.c768)) Cert.PartModel.c768
              + Cert.PartModel.eps)
          * g (ix2 (0 : Fin 1) d) + be (ix2 (0 : Fin 1) d) := by
  show centredMat v hR hC hB hφ ha (ix2 k d)
        * (broadcastTo S16x768 (rsqrt (addf (meanCol (mulf (centredMat v hR hC hB hφ ha) (centredMat v hR hC hB hφ ha)) hR hC hφ ha)
            (broadcast S16x1 (Scalar.ofBits .f32 0x358637BD#32)))) hB : FVec Ideal S16x768 .f32) (ix2 k d)
        * (broadcastTo S16x768 g hG : FVec Ideal S16x768 .f32) (ix2 k d)
      + (broadcastTo S16x768 be hG : FVec Ideal S16x768 .f32) (ix2 k d) = _
  rw [Cert.LibMergedAxes.broadcastTo_a1_ab_apply, broadcastTo_1b_ab_apply, broadcastTo_1b_ab_apply, centredMat_at]
  show _ * Ideal.rsqrt (meanCol (mulf (centredMat v hR hC hB hφ ha) (centredMat v hR hC hB hφ ha)) hR hC hφ ha (ix2 k (0 : Fin 1))
      + Ideal.ofBits .f32 0x358637BD#32) * _ + _ = _
  rw [meanCol_at]
  have hsq : ∀ e : Fin 768, (mulf (centredMat v hR hC hB hφ ha) (centredMat v hR hC hB hφ ha) : FVec Ideal S16x768 .f32) (ix2 k e)
      = (v (ix2 k e) - Ideal.div (∑ e' : Fin 768, v (ix2 k e')) Cert.PartModel.c768)
        * (v (ix2 k e) - Ideal.div (∑ e' : Fin 768, v (ix2 k e')) Cert.PartModel.c768) := fun e => by
    show centredMat v hR hC hB hφ ha (ix2 k e) * centredMat v hR hC hB hφ ha (ix2 k e) = _
    rw [centredMat_at]
  rw [Finset.sum_congr rfl fun e _ => hsq e]
  rfl

/-! ## The body's values -/

section Body

variable (g be : Vec Ideal S1x768 .f32) (W : Vec Ideal S768x200 .f32) (bc : Vec Ideal S1x200 .f32)
  (pt : Vec Ideal S768x17 .f32) (psq : Vec Ideal S1x17 .f32) (xi : Vec Ideal S1x576x768 .f32)

/-- Patch p, feature d of the image, as the pooling product's right operand. -/
theorem patchFeature_at (p : Fin 576) (d : Fin 768) : (k0_pay8 xi : FVec Ideal S576x768 .bf16) (ix2 p d) = xi (ix3 (0 : Fin 1) p d) :=
  shapeCast_1ab_ab_apply xi shapeCasts_S1x576x768_S576x768 p d

/-- The pooled features of all 17 prototypes: the pooling product over the word 576. -/
abbrev pooledMat : FVec Ideal S17x768 .f32 :=
  divf (matmul dot_S576x17_S576x768_S17x768_0_0_1_1_n_n none (k0_pay11 pt psq xi) (k0_pay8 xi) (constant S17x768 .f32 0x00000000#32))
    (broadcast S17x768 (Scalar.ofBits .f32 0x44100000#32))

theorem pooledMat_at (k : Fin 17) (d : Fin 768) :
    pooledMat pt psq xi (ix2 k d)
      = Cert.ItemModel.pooled (fun (p : Fin 576) (k : Fin 17) => soft (F := Ideal) pt psq xi (ix2 p k))
          (fun (p : Fin 576) (d : Fin 768) => xi (ix3 (0 : Fin 1) p d)) k d := by
  show Ideal.div ((matmul dot_S576x17_S576x768_S17x768_0_0_1_1_n_n none (k0_pay11 pt psq xi) (k0_pay8 xi) (constant S17x768 .f32 0x00000000#32)
      : FVec Ideal S17x768 .f32) (ix2 k d)) (Ideal.ofBits .f32 0x44100000#32) = _
  rw [poolMatmul_apply]
  simp only [patchFeature_at]
  rfl

/-- The 16 foreground rows of the pooled features. -/
abbrev fgMat : FVec Ideal S16x768 .f32 :=
  extractStridedSlice S16x768 ![0, 0] (pooledMat pt psq xi) slices_S17x768_o0_0_S16x768

theorem fgMat_at (k : Fin 16) (d : Fin 768) :
    fgMat pt psq xi (ix2 k d)
      = Cert.ItemModel.fg (fun (p : Fin 576) (k : Fin 17) => soft (F := Ideal) pt psq xi (ix2 p k))
          (fun (p : Fin 576) (d : Fin 768) => xi (ix3 (0 : Fin 1) p d)) k d := by
  show (extractStridedSlice S16x768 ![0, 0] (pooledMat pt psq xi) slices_S17x768_o0_0_S16x768 : FVec Ideal S16x768 .f32) (ix2 k d) = _
  rw [slice2_axis0_apply 0 (pooledMat pt psq xi) slices_S17x768_o0_0_S16x768 k d (Cert.PartModel.fgOf k) (Nat.zero_add _).symm,
    pooledMat_at]
  rfl

theorem scaleRow_eq : (k0_pay4 g : FVec Ideal S1x768 .f32) = g := shapeCast_self g shapeCasts_S1x768_S1x768
theorem shiftRow_eq : (k0_pay5 be : FVec Ideal S1x768 .f32) = be := shapeCast_self be shapeCasts_S1x768_S1x768

/-- The layer-normalised pooled feature d of part k. -/
theorem normedMat_at (k : Fin 16) (d : Fin 768) :
    normedMat g be pt psq xi (ix2 k d)
      = Cert.ItemModel.normed (fun (p : Fin 576) (k : Fin 17) => soft (F := Ideal) pt psq xi (ix2 p k))
          (fun (p : Fin 576) (d : Fin 768) => xi (ix3 (0 : Fin 1) p d))
          (fun d => g (ix2 (0 : Fin 1) d)) (fun d => be (ix2 (0 : Fin 1) d)) k d := by
  refine (layerNormMat_at (fgMat pt psq xi) (k0_pay4 g) (k0_pay5 be) reduces_S16x768_S16 shapeCasts_S16_S16x1
    broadcasts_S16x1_S16x768 broadcasts_S1x768_S16x768 (.inl rfl) rfl k d).trans ?_
  rw [scaleRow_eq, shiftRow_eq]
  simp only [fgMat_at]
  rfl

theorem normedPiece_at (u : Fin 1) (k : Fin 16) (d : Fin 768) :
    normedPiece g be pt psq xi (ix3 u k d)
      = Cert.ItemModel.normed (fun (p : Fin 576) (k : Fin 17) => soft (F := Ideal) pt psq xi (ix2 p k))
          (fun (p : Fin 576) (d : Fin 768) => xi (ix3 (0 : Fin 1) p d))
          (fun d => g (ix2 (0 : Fin 1) d)) (fun d => be (ix2 (0 : Fin 1) d)) k d := by
  show (shapeCast S1x16x768 (normedMat g be pt psq xi) shapeCasts_S16x768_S1x16x768 : FVec Ideal S1x16x768 .f32) (ix3 u k d) = _
  rw [shapeCast_ab_1ab_apply, normedMat_at]

end Body

/-! ## The class scores and their average -/

/-- Column sums of a 16×200 matrix kept as a row: entry (·, c) is Σ_k w(k, c). -/
theorem colSumRow_at (w : FVec Ideal S16x200 .f32) (hR : S16x200.Reduces [0] S200) (hC : S200.ShapeCasts S1x200)
    (hφ : FKind.Formats .f32) (ha : (0x00000000#32 : BitVec 32) = FKind.add.neutral .f32 hφ) (u : Fin 1) (c : Fin 200) :
    (shapeCast S1x200 (multiReduction .add [0] S200 w 0x00000000#32 hR hφ ha) hC : FVec Ideal S1x200 .f32) (ix2 u c)
      = ∑ k : Fin 16, w (ix2 k c) := by
  rw [shapeCast_a_1a_apply, Ideal.multiReduction_add_single]
  refine Finset.sum_congr rfl fun (k : Fin 16) _ => ?_
  exact congrArg w (funext fun a => Fin.ext (by match a with | ⟨0, _⟩ => rfl | ⟨1, _⟩ => rfl))

section Scores

variable (g be : Vec Ideal S1x768 .f32) (W : Vec Ideal S768x200 .f32) (bc : Vec Ideal S1x200 .f32)
  (pt : Vec Ideal S768x17 .f32) (psq : Vec Ideal S1x17 .f32) (xi : Vec Ideal S1x576x768 .f32)

theorem biasRow_eq : (k0_pay7 bc : FVec Ideal S1x200 .f32) = bc := shapeCast_self bc shapeCasts_S1x200_S1x200

/-- Class score c of part k: the normalised features times the classifier matrix, plus the bias. -/
theorem logitMat_at (k : Fin 16) (c : Fin 200) :
    logitMat g be W bc pt psq xi (ix2 k c)
      = Cert.ItemModel.logit (fun (p : Fin 576) (k : Fin 17) => soft (F := Ideal) pt psq xi (ix2 p k))
          (fun (p : Fin 576) (d : Fin 768) => xi (ix3 (0 : Fin 1) p d))
          (fun d => g (ix2 (0 : Fin 1) d)) (fun d => be (ix2 (0 : Fin 1) d))
          (fun d c => W (ix2 d c)) (fun c => bc (ix2 (0 : Fin 1) c)) k c := by
  show (matmul dot_S16x768_S768x200_S16x200_1_0_0_1_n_n none (truncf .bf16 (normedMat g be pt psq xi) bitsLt_bf16_f32) (k0_pay6 W)
          (constant S16x200 .f32 0x00000000#32) : FVec Ideal S16x200 .f32) (ix2 k c)
      + (broadcastTo S16x200 (k0_pay7 bc) broadcasts_S1x200_S16x200 : FVec Ideal S16x200 .f32) (ix2 k c) = _
  rw [broadcastTo_1b_ab_apply, biasRow_eq,
    show (matmul dot_S16x768_S768x200_S16x200_1_0_0_1_n_n none (truncf .bf16 (normedMat g be pt psq xi) bitsLt_bf16_f32) (k0_pay6 W)
          (constant S16x200 .f32 0x00000000#32) : FVec Ideal S16x200 .f32) (ix2 k c)
        = ∑ d : Fin 768, (truncf .bf16 (normedMat g be pt psq xi) bitsLt_bf16_f32 : FVec Ideal S16x768 .bf16) (ix2 k d)
            * (k0_pay6 W : FVec Ideal S768x200 .bf16) (ix2 d c)
      from PlainMatmul.apply_zero (M := 16) (K := 768) (N := 200) (truncf .bf16 (normedMat g be pt psq xi) bitsLt_bf16_f32) (k0_pay6 W) k c]
  show (∑ d : Fin 768, normedMat g be pt psq xi (ix2 k d) * W (ix2 d c)) + bc (ix2 (0 : Fin 1) c) = _
  simp only [normedMat_at]
  rfl

theorem logitPiece_at (u : Fin 1) (k : Fin 16) (c : Fin 200) :
    logitPiece g be W bc pt psq xi (ix3 u k c)
      = Cert.ItemModel.logit (fun (p : Fin 576) (k : Fin 17) => soft (F := Ideal) pt psq xi (ix2 p k))
          (fun (p : Fin 576) (d : Fin 768) => xi (ix3 (0 : Fin 1) p d))
          (fun d => g (ix2 (0 : Fin 1) d)) (fun d => be (ix2 (0 : Fin 1) d))
          (fun d c => W (ix2 d c)) (fun c => bc (ix2 (0 : Fin 1) c)) k c := by
  show (shapeCast S1x16x200 (logitMat g be W bc pt psq xi) shapeCasts_S16x200_S1x16x200 : FVec Ideal S1x16x200 .f32) (ix3 u k c) = _
  rw [shapeCast_ab_1ab_apply, logitMat_at]

/-- The average over the 16 parts of class score c. -/
theorem pooledPiece_at (u v : Fin 1) (c : Fin 200) :
    pooledPiece g be W bc pt psq xi (ix3 u v c)
      = Cert.ItemModel.pooledLogit (fun (p : Fin 576) (k : Fin 17) => soft (F := Ideal) pt psq xi (ix2 p k))
          (fun (p : Fin 576) (d : Fin 768) => xi (ix3 (0 : Fin 1) p d))
          (fun d => g (ix2 (0 : Fin 1) d)) (fun d => be (ix2 (0 : Fin 1) d))
          (fun d c => W (ix2 d c)) (fun c => bc (ix2 (0 : Fin 1) c)) c := by
  show (shapeCast S1x1x200
      (divf (shapeCast S1x200 (multiReduction .add [0] S200 (logitMat g be W bc pt psq xi) 0x00000000#32 reduces_S16x200_S200 (.inl rfl) rfl)
          shapeCasts_S200_S1x200) (broadcast S1x200 (Scalar.ofBits .f32 0x41800000#32)))
      shapeCasts_S1x200_S1x1x200 : FVec Ideal S1x1x200 .f32) (ix3 u v c) = _
  rw [shapeCast_ab_1ab_apply]
  show Ideal.div ((shapeCast S1x200 (multiReduction .add [0] S200 (logitMat g be W bc pt psq xi) 0x00000000#32 reduces_S16x200_S200 (.inl rfl) rfl)
      shapeCasts_S200_S1x200 : FVec Ideal S1x200 .f32) (ix2 v c)) (Ideal.ofBits .f32 0x41800000#32) = _
  refine (congrArg (fun t => Ideal.div t (Ideal.ofBits .f32 0x41800000#32))
    (colSumRow_at (logitMat g be W bc pt psq xi) reduces_S16x200_S200 shapeCasts_S200_S1x200 (.inl rfl) rfl v c)).trans ?_
  simp only [logitMat_at]
  rfl

end Scores

end Cert.KernelItem

end
-- ==== Proof.ItemAtModel.lean ====
/-
  One image's values in the whole model's terms.

  When the vectors the body works on are the model's arrays — the image's patch features are image b's patches, the
  transposed prototypes are the prototypes read transposed, the row of squared norms is the prototypes' squared norms,
  the scale, shift, classifier matrix and bias rows are the model's vectors — the body's per-image values are the
  model's: the assignment is the short-score softmax of image b, and everything after it is the model's function of
  that assignment.
-/
import proofs.«171693_j11201274708047_2_alg».proof.Proof.ItemSoftmax
import proofs.«171693_j11201274708047_2_alg».proof.Proof.ItemModel
import proofs.«171693_j11201274708047_2_alg».proof.Proof.ItemHead

set_option maxRecDepth 16384

noncomputable section

namespace Cert.KernelItem

open Idealize.ShloMosaic Idealize.ShloMosaic.ValueIdx Cert.KernelIdeal Cert.KernelIdeal.Gen Cert.PartModel

variable (x : ShX.Idx → EReal) (P : ShP.Idx → EReal) (b : Fin 32)
  (pt : Vec Ideal S768x17 .f32) (psq : Vec Ideal S1x17 .f32) (xi : Vec Ideal S1x576x768 .f32)

/-- The image's assignment is the model's short-score assignment of image b. -/
theorem soft_model (hxi : ∀ (p : Fin 576) (d : Fin 768), xi (ix3 (0 : Fin 1) p d) = patch x b p d)
    (hpt : ∀ (d : Fin 768) (k : Fin 17), pt (ix2 d k) = P (ix2 k d))
    (hpsq : ∀ k : Fin 17, psq (ix2 (0 : Fin 1) k) = protoSq P k) (p : Fin 576) (k : Fin 17) :
    soft (F := Ideal) pt psq xi (ix2 p k) = assignShort x P b p k := by
  rw [soft_at]
  unfold assignShort
  refine congrArg (fun s => softmax s k) (funext fun k' => ?_)
  unfold scoreShort Cert.PartModel.inner
  simp only [hxi, hpt, hpsq]

variable (gm bm : ShD.Idx → EReal) (wm : ShW.Idx → EReal) (cm : ShC.Idx → EReal)
  (g be : Vec Ideal S1x768 .f32) (W : Vec Ideal S768x200 .f32) (bc : Vec Ideal S1x200 .f32)

section
variable (hxi : ∀ (p : Fin 576) (d : Fin 768), xi (ix3 (0 : Fin 1) p d) = patch x b p d)
  (hpt : ∀ (d : Fin 768) (k : Fin 17), pt (ix2 d k) = P (ix2 k d))
  (hpsq : ∀ k : Fin 17, psq (ix2 (0 : Fin 1) k) = protoSq P k)
  (hg : ∀ d : Fin 768, g (ix2 (0 : Fin 1) d) = gm (ix1 d)) (hbe : ∀ d : Fin 768, be (ix2 (0 : Fin 1) d) = bm (ix1 d))
  (hW : ∀ (d : Fin 768) (cc : Fin 200), W (ix2 d cc) = wm (ix2 d cc)) (hbc : ∀ cc : Fin 200, bc (ix2 (0 : Fin 1) cc) = cm (ix1 cc))

include hxi hpt hpsq in
theorem assign_fun : (fun (p : Fin 576) (k : Fin 17) => soft (F := Ideal) pt psq xi (ix2 p k)) = assignShort x P b :=
  funext fun p => funext fun k => soft_model x P b pt psq xi hxi hpt hpsq p k

include hxi in
theorem patch_fun : (fun (p : Fin 576) (d : Fin 768) => xi (ix3 (0 : Fin 1) p d)) = patch x b :=
  funext fun p => funext fun d => hxi p d

include hxi hpt hpsq hg hbe in
/-- The normalised pooled features of the image are the model's for image b. -/
theorem normedPiece_model (u : Fin 1) (k : Fin 16) (d : Fin 768) :
    normedPiece (F := Ideal) g be pt psq xi (ix3 u k d) = normed (assignShort x P) x gm bm b k d := by
  rw [normedPiece_at, assign_fun x P b pt psq xi hxi hpt hpsq, patch_fun x b xi hxi, funext hg, funext hbe]
  rfl

include hxi hpt hpsq hg hbe hW hbc in
/-- The parts' class scores are the model's. -/
theorem logitPiece_model (u : Fin 1) (k : Fin 16) (cc : Fin 200) :
    logitPiece (F := Ideal) g be W bc pt psq xi (ix3 u k cc) = logit (assignShort x P) x gm bm wm cm b k cc := by
  rw [logitPiece_at, assign_fun x P b pt psq xi hxi hpt hpsq, patch_fun x b xi hxi, funext hg, funext hbe,
    show (fun (d : Fin 768) (cc : Fin 200) => W (ix2 d cc)) = fun d cc => wm (ix2 d cc) from funext fun d => funext fun cc => hW d cc,
    funext hbc]
  rfl

include hxi hpt hpsq hg hbe hW hbc in
/-- Their average is the model's. -/
theorem pooledPiece_model (u v : Fin 1) (cc : Fin 200) :
    pooledPiece (F := Ideal) g be W bc pt psq xi (ix3 u v cc) = pooledLogit (assignShort x P) x gm bm wm cm b cc := by
  rw [pooledPiece_at, assign_fun x P b pt psq xi hxi hpt hpsq, patch_fun x b xi hxi, funext hg, funext hbe,
    show (fun (d : Fin 768) (cc : Fin 200) => W (ix2 d cc)) = fun d cc => wm (ix2 d cc) from funext fun d => funext fun cc => hW d cc,
    funext hbc]
  rfl
end

end Cert.KernelItem

end
-- ==== Proof.BlockValues.lean ====
/-
  What the body leaves in an output block, entry by entry.

  A block holds four images. The body writes each output block image by image: piece j of the block (its j-th
  [1, ·, ·] slab) is the j-th image's value, computed from slab j of the patch-feature block and the resident operands.
  When the patch-feature block is images 4t … 4t+3 of the model's array, entry (j, ·, ·) of each output block is the
  model's value for image 4t + j.
-/
import proofs.«171693_j11201274708047_2_alg».proof.Proof.Gen.KernelIdeal.Frame
import proofs.«171693_j11201274708047_2_alg».proof.Proof.ItemAtModel
import Idealize.ShloMosaic.Lib.Pipeline.Value

set_option maxRecDepth 16384

noncomputable section

namespace Cert.KernelBlock

open Idealize.ShloMosaic Idealize.ShloMosaic.ValueIdx Cert.KernelIdeal Cert.KernelIdeal.Gen Cert.PartModel Cert.KernelItem

/-- Image 4t + j. -/
def img (tt : Fin 8) (j : Fin 4) : Fin 32 := ⟨4 * tt.val + j.val, by have := tt.isLt; have := j.isLt; omega⟩

theorem hz2 : (![0, 0] : Fin 2 → Nat) = fun _ => 0 := funext fun a => by fin_cases a <;> rfl

/-- Slab j of a four-slab block: its local index (u, a, b) sits at (j, a, b) of the block. -/
theorem slab_emb {A B : ℕ} (jn : ℕ) (hj : jn < 4)
    (inb : ∀ a, (![jn, 0, 0] : Fin 3 → Nat) a + (⟨3, ![1, A, B]⟩ : Shape).size a ≤ (⟨3, ![4, A, B]⟩ : Shape).size a)
    (u : Fin 1) (a : Fin A) (b : Fin B) :
    (Rect.unit (s := (⟨3, ![4, A, B]⟩ : Shape)) ![jn, 0, 0] (⟨3, ![1, A, B]⟩ : Shape).size inb).emb (ix3 u a b)
      = ix3 (⟨jn, hj⟩ : Fin 4) a b := by
  funext ax
  apply Fin.ext
  match ax with
  | ⟨0, _⟩ => show jn + 1 * u.val = jn; omega
  | ⟨1, _⟩ => show 0 + 1 * a.val = a.val; omega
  | ⟨2, _⟩ => show 0 + 1 * b.val = b.val; omega

variable (x : ShX.Idx → EReal) (P : ShP.Idx → EReal) (gm bm : ShD.Idx → EReal) (wm : ShW.Idx → EReal) (cm : ShC.Idx → EReal)
  (tt : Fin 8)
  (x0 : Vec Ideal S4x576x768 .f32) (x1 : Vec Ideal S768x17 .f32) (x2 : Vec Ideal S1x17 .f32) (x3 x4 : Vec Ideal S1x768 .f32)
  (x5 : Vec Ideal S768x200 .f32) (x6 : Vec Ideal S1x200 .f32)
  (h0 : ∀ (j : Fin 4) (p : Fin 576) (d : Fin 768), x0 (ix3 j p d) = patch x (img tt j) p d)
  (h1 : ∀ (d : Fin 768) (k : Fin 17), x1 (ix2 d k) = P (ix2 k d))
  (h2 : ∀ k : Fin 17, x2 (ix2 (0 : Fin 1) k) = protoSq P k)
  (h3 : ∀ d : Fin 768, x3 (ix2 (0 : Fin 1) d) = gm (ix1 d))
  (h4 : ∀ d : Fin 768, x4 (ix2 (0 : Fin 1) d) = bm (ix1 d))
  (h5 : ∀ (d : Fin 768) (cc : Fin 200), x5 (ix2 d cc) = wm (ix2 d cc))
  (h6 : ∀ cc : Fin 200, x6 (ix2 (0 : Fin 1) cc) = cm (ix1 cc))

/-! ## What the body's loads read -/

include h0 in
/-- Slab j of the patch-feature block is image 4t+j. -/
theorem ld_features (jn : ℕ) (hj : jn < 4) (inbI) (p : Fin 576) (d : Fin 768) :
    (View.ld x0 (Rect.unit (s := S4x576x768) ![jn, 0, 0] S1x576x768.size inbI) : Vec Ideal S1x576x768 .f32) (ix3 (0 : Fin 1) p d)
      = patch x (img tt ⟨jn, hj⟩) p d := by
  show x0 ((Rect.unit (s := S4x576x768) ![jn, 0, 0] S1x576x768.size inbI).emb (ix3 (0 : Fin 1) p d)) = _
  rw [slab_emb jn hj inbI (0 : Fin 1) p d]
  exact h0 _ p d

include h1 in
theorem ld_protoT (d : Fin 768) (k : Fin 17) : (View.ld x1 r0_0 : Vec Ideal S768x17 .f32) (ix2 d k) = P (ix2 k d) := by
  rw [View.ld_unit_zero (S := S768x17) hz2]; exact h1 d k
include h2 in
theorem ld_protoSq (k : Fin 17) : (View.ld x2 r0_1 : Vec Ideal S1x17 .f32) (ix2 (0 : Fin 1) k) = protoSq P k := by
  rw [View.ld_unit_zero (S := S1x17) hz2]; exact h2 k
include h3 in
theorem ld_scale (d : Fin 768) : (View.ld x3 r0_2 : Vec Ideal S1x768 .f32) (ix2 (0 : Fin 1) d) = gm (ix1 d) := by
  rw [View.ld_unit_zero (S := S1x768) hz2]; exact h3 d
include h4 in
theorem ld_shift (d : Fin 768) : (View.ld x4 r0_2 : Vec Ideal S1x768 .f32) (ix2 (0 : Fin 1) d) = bm (ix1 d) := by
  rw [View.ld_unit_zero (S := S1x768) hz2]; exact h4 d
include h5 in
theorem ld_classifier (d : Fin 768) (cc : Fin 200) : (View.ld x5 r0_3 : Vec Ideal S768x200 .f32) (ix2 d cc) = wm (ix2 d cc) := by
  rw [View.ld_unit_zero (S := S768x200) hz2]; exact h5 d cc
include h6 in
theorem ld_bias (cc : Fin 200) : (View.ld x6 r0_4 : Vec Ideal S1x200 .f32) (ix2 (0 : Fin 1) cc) = cm (ix1 cc) := by
  rw [View.ld_unit_zero (S := S1x200) hz2]; exact h6 cc

/-! ## The map block -/

include h0 h1 h2 in
/-- Slab j of the map block is image 4t+j's transposed assignment. -/
theorem mapsSlab (jn : ℕ) (hj : jn < 4) (inbO) (inbI) (xx : S1x17x576.Idx) :
    mapsPiece (F := Ideal) (View.ld x1 r0_0) (View.ld x2 r0_1) (View.ld x0 (Rect.unit (s := S4x576x768) ![jn, 0, 0] S1x576x768.size inbI)) xx
      = assignShort x P (img tt ((Rect.unit (s := S4x17x576) ![jn, 0, 0] S1x17x576.size inbO).emb xx 0))
          ((Rect.unit (s := S4x17x576) ![jn, 0, 0] S1x17x576.size inbO).emb xx 2)
          ((Rect.unit (s := S4x17x576) ![jn, 0, 0] S1x17x576.size inbO).emb xx 1) := by
  obtain ⟨u, k', p', rfl⟩ : ∃ (u : Fin 1) (k' : Fin 17) (p' : Fin 576), xx = ix3 u k' p' := ⟨xx 0, xx 1, xx 2, eq_ix3 xx⟩
  rw [mapsPiece_at, slab_emb jn hj inbO u k' p']
  exact soft_model x P (img tt ⟨jn, hj⟩) _ _ _ (ld_features x tt x0 h0 jn hj inbI) (ld_protoT P x1 h1) (ld_protoSq P x2 h2) p' k'

include h0 h1 h2 in
theorem mapsBlock_at (j : Fin 4) (k : Fin 17) (p : Fin 576) :
    out0_7 (F := Ideal) x0 x1 x2 x3 x4 x5 x6 (ix3 j k p) = assignShort x P (img tt j) p k := by
  unfold out0_7
  rw [maps_fourth, maps_third, maps_second]
  refine (View.canon_apply_of_pieces (fun y : S4x17x576.Idx => assignShort x P (img tt (y 0)) (y 2) (y 1)) _ ?_ (ix3 j k p)
    (cover0_7 _ _ _ _ _)).trans rfl
  intro pc hpc xx
  simp only [List.mem_cons, List.mem_nil_iff, or_false] at hpc
  rcases hpc with rfl | rfl | rfl | rfl
  · exact mapsSlab x P tt x0 x1 x2 h0 h1 h2 3 (by omega) inb_S4x17x576_S1x17x576_3_0_0 inb_S4x576x768_S1x576x768_3_0_0 xx
  · exact mapsSlab x P tt x0 x1 x2 h0 h1 h2 2 (by omega) inb_S4x17x576_S1x17x576_2_0_0 inb_S4x576x768_S1x576x768_2_0_0 xx
  · exact mapsSlab x P tt x0 x1 x2 h0 h1 h2 1 (by omega) inb_S4x17x576_S1x17x576_1_0_0 inb_S4x576x768_S1x576x768_1_0_0 xx
  · exact mapsSlab x P tt x0 x1 x2 h0 h1 h2 0 (by omega) inb_S4x17x576_S1x17x576_0_0_0 inb_S4x576x768_S1x576x768_0_0_0 xx

/-! ## The normalised-feature block -/

include h0 h1 h2 h3 h4 in
theorem normedSlab (jn : ℕ) (hj : jn < 4) (inbO) (inbI) (xx : S1x16x768.Idx) :
    normedPiece (F := Ideal) (View.ld x3 r0_2) (View.ld x4 r0_2) (View.ld x1 r0_0) (View.ld x2 r0_1)
        (View.ld x0 (Rect.unit (s := S4x576x768) ![jn, 0, 0] S1x576x768.size inbI)) xx
      = normed (assignShort x P) x gm bm (img tt ((Rect.unit (s := S4x16x768) ![jn, 0, 0] S1x16x768.size inbO).emb xx 0))
          ((Rect.unit (s := S4x16x768) ![jn, 0, 0] S1x16x768.size inbO).emb xx 1)
          ((Rect.unit (s := S4x16x768) ![jn, 0, 0] S1x16x768.size inbO).emb xx 2) := by
  obtain ⟨u, k', d', rfl⟩ : ∃ (u : Fin 1) (k' : Fin 16) (d' : Fin 768), xx = ix3 u k' d' := ⟨xx 0, xx 1, xx 2, eq_ix3 xx⟩
  rw [slab_emb jn hj inbO u k' d']
  exact normedPiece_model x P (img tt ⟨jn, hj⟩) _ _ _ gm bm _ _ (ld_features x tt x0 h0 jn hj inbI) (ld_protoT P x1 h1)
    (ld_protoSq P x2 h2) (ld_scale gm x3 h3) (ld_shift bm x4 h4) u k' d'

include h0 h1 h2 h3 h4 in
theorem normedBlock_at (j : Fin 4) (k : Fin 16) (d : Fin 768) :
    out0_8 (F := Ideal) x0 x1 x2 x3 x4 x5 x6 (ix3 j k d) = normed (assignShort x P) x gm bm (img tt j) k d := by
  unfold out0_8
  rw [normed_fourth, normed_third, normed_second]
  refine (View.canon_apply_of_pieces (fun y : S4x16x768.Idx => normed (assignShort x P) x gm bm (img tt (y 0)) (y 1) (y 2)) _ ?_ (ix3 j k d)
    (cover0_8 _ _ _ _ _)).trans rfl
  intro pc hpc xx
  simp only [List.mem_cons, List.mem_nil_iff, or_false] at hpc
  rcases hpc with rfl | rfl | rfl | rfl
  · exact normedSlab x P gm bm tt x0 x1 x2 x3 x4 h0 h1 h2 h3 h4 3 (by omega) inb_S4x16x768_S1x16x768_3_0_0 inb_S4x576x768_S1x576x768_3_0_0 xx
  · exact normedSlab x P gm bm tt x0 x1 x2 x3 x4 h0 h1 h2 h3 h4 2 (by omega) inb_S4x16x768_S1x16x768_2_0_0 inb_S4x576x768_S1x576x768_2_0_0 xx
  · exact normedSlab x P gm bm tt x0 x1 x2 x3 x4 h0 h1 h2 h3 h4 1 (by omega) inb_S4x16x768_S1x16x768_1_0_0 inb_S4x576x768_S1x576x768_1_0_0 xx
  · exact normedSlab x P gm bm tt x0 x1 x2 x3 x4 h0 h1 h2 h3 h4 0 (by omega) inb_S4x16x768_S1x16x768_0_0_0 inb_S4x576x768_S1x576x768_0_0_0 xx

/-! ## The class-score block -/

include h0 h1 h2 h3 h4 h5 h6 in
theorem logitSlab (jn : ℕ) (hj : jn < 4) (inbO) (inbI) (xx : S1x16x200.Idx) :
    logitPiece (F := Ideal) (View.ld x3 r0_2) (View.ld x4 r0_2) (View.ld x5 r0_3) (View.ld x6 r0_4) (View.ld x1 r0_0) (View.ld x2 r0_1)
        (View.ld x0 (Rect.unit (s := S4x576x768) ![jn, 0, 0] S1x576x768.size inbI)) xx
      = logit (assignShort x P) x gm bm wm cm (img tt ((Rect.unit (s := S4x16x200) ![jn, 0, 0] S1x16x200.size inbO).emb xx 0))
          ((Rect.unit (s := S4x16x200) ![jn, 0, 0] S1x16x200.size inbO).emb xx 1)
          ((Rect.unit (s := S4x16x200) ![jn, 0, 0] S1x16x200.size inbO).emb xx 2) := by
  obtain ⟨u, k', c', rfl⟩ : ∃ (u : Fin 1) (k' : Fin 16) (c' : Fin 200), xx = ix3 u k' c' := ⟨xx 0, xx 1, xx 2, eq_ix3 xx⟩
  rw [slab_emb jn hj inbO u k' c']
  exact logitPiece_model x P (img tt ⟨jn, hj⟩) _ _ _ gm bm wm cm _ _ _ _ (ld_features x tt x0 h0 jn hj inbI) (ld_protoT P x1 h1)
    (ld_protoSq P x2 h2) (ld_scale gm x3 h3) (ld_shift bm x4 h4) (ld_classifier wm x5 h5) (ld_bias cm x6 h6) u k' c'

include h0 h1 h2 h3 h4 h5 h6 in
theorem logitBlock_at (j : Fin 4) (k : Fin 16) (cc : Fin 200) :
    out0_9 (F := Ideal) x0 x1 x2 x3 x4 x5 x6 (ix3 j k cc) = logit (assignShort x P) x gm bm wm cm (img tt j) k cc := by
  unfold out0_9
  rw [logit_fourth, logit_third, logit_second]
  refine (View.canon_apply_of_pieces (fun y : S4x16x200.Idx => logit (assignShort x P) x gm bm wm cm (img tt (y 0)) (y 1) (y 2)) _ ?_ (ix3 j k cc)
    (cover0_9 _ _ _ _ _)).trans rfl
  intro pc hpc xx
  simp only [List.mem_cons, List.mem_nil_iff, or_false] at hpc
  rcases hpc with rfl | rfl | rfl | rfl
  · exact logitSlab x P gm bm wm cm tt x0 x1 x2 x3 x4 x5 x6 h0 h1 h2 h3 h4 h5 h6 3 (by omega) inb_S4x16x200_S1x16x200_3_0_0 inb_S4x576x768_S1x576x768_3_0_0 xx
  · exact logitSlab x P gm bm wm cm tt x0 x1 x2 x3 x4 x5 x6 h0 h1 h2 h3 h4 h5 h6 2 (by omega) inb_S4x16x200_S1x16x200_2_0_0 inb_S4x576x768_S1x576x768_2_0_0 xx
  · exact logitSlab x P gm bm wm cm tt x0 x1 x2 x3 x4 x5 x6 h0 h1 h2 h3 h4 h5 h6 1 (by omega) inb_S4x16x200_S1x16x200_1_0_0 inb_S4x576x768_S1x576x768_1_0_0 xx
  · exact logitSlab x P gm bm wm cm tt x0 x1 x2 x3 x4 x5 x6 h0 h1 h2 h3 h4 h5 h6 0 (by omega) inb_S4x16x200_S1x16x200_0_0_0 inb_S4x576x768_S1x576x768_0_0_0 xx

/-! ## The averaged-score block -/

include h0 h1 h2 h3 h4 h5 h6 in
theorem pooledSlab (jn : ℕ) (hj : jn < 4) (inbO) (inbI) (xx : S1x1x200.Idx) :
    pooledPiece (F := Ideal) (View.ld x3 r0_2) (View.ld x4 r0_2) (View.ld x5 r0_3) (View.ld x6 r0_4) (View.ld x1 r0_0) (View.ld x2 r0_1)
        (View.ld x0 (Rect.unit (s := S4x576x768) ![jn, 0, 0] S1x576x768.size inbI)) xx
      = pooledLogit (assignShort x P) x gm bm wm cm (img tt ((Rect.unit (s := S4x1x200) ![jn, 0, 0] S1x1x200.size inbO).emb xx 0))
          ((Rect.unit (s := S4x1x200) ![jn, 0, 0] S1x1x200.size inbO).emb xx 2) := by
  obtain ⟨u, v, c', rfl⟩ : ∃ (u v : Fin 1) (c' : Fin 200), xx = ix3 u v c' := ⟨xx 0, xx 1, xx 2, eq_ix3 xx⟩
  rw [slab_emb jn hj inbO u v c']
  exact pooledPiece_model x P (img tt ⟨jn, hj⟩) _ _ _ gm bm wm cm _ _ _ _ (ld_features x tt x0 h0 jn hj inbI) (ld_protoT P x1 h1)
    (ld_protoSq P x2 h2) (ld_scale gm x3 h3) (ld_shift bm x4 h4) (ld_classifier wm x5 h5) (ld_bias cm x6 h6) u v c'

include h0 h1 h2 h3 h4 h5 h6 in
theorem pooledBlock_at (j : Fin 4) (z : Fin 1) (cc : Fin 200) :
    out0_10 (F := Ideal) x0 x1 x2 x3 x4 x5 x6 (ix3 j z cc) = pooledLogit (assignShort x P) x gm bm wm cm (img tt j) cc := by
  unfold out0_10
  rw [pooled_fourth, pooled_third, pooled_second]
  refine (View.canon_apply_of_pieces (fun y : S4x1x200.Idx => pooledLogit (assignShort x P) x gm bm wm cm (img tt (y 0)) (y 2)) _ ?_ (ix3 j z cc)
    (cover0_10 _ _ _ _ _)).trans rfl
  intro pc hpc xx
  simp only [List.mem_cons, List.mem_nil_iff, or_false] at hpc
  rcases hpc with rfl | rfl | rfl | rfl
  · exact pooledSlab x P gm bm wm cm tt x0 x1 x2 x3 x4 x5 x6 h0 h1 h2 h3 h4 h5 h6 3 (by omega) inb_S4x1x200_S1x1x200_3_0_0 inb_S4x576x768_S1x576x768_3_0_0 xx
  · exact pooledSlab x P gm bm wm cm tt x0 x1 x2 x3 x4 x5 x6 h0 h1 h2 h3 h4 h5 h6 2 (by omega) inb_S4x1x200_S1x1x200_2_0_0 inb_S4x576x768_S1x576x768_2_0_0 xx
  · exact pooledSlab x P gm bm wm cm tt x0 x1 x2 x3 x4 x5 x6 h0 h1 h2 h3 h4 h5 h6 1 (by omega) inb_S4x1x200_S1x1x200_1_0_0 inb_S4x576x768_S1x576x768_1_0_0 xx
  · exact pooledSlab x P gm bm wm cm tt x0 x1 x2 x3 x4 x5 x6 h0 h1 h2 h3 h4 h5 h6 0 (by omega) inb_S4x1x200_S1x1x200_0_0_0 inb_S4x576x768_S1x576x768_0_0_0 xx

end Cert.KernelBlock

end
-- ==== Proof.EntryArrays.lean ====
/-
  The arrays the kernel's region finds when it is entered, and the blocks its seven input windows cut from them,
  read index by index on the extended reals.

  Before the region the host reshapes the patch features to 32 × 576 × 768 (patch p = 24·row + column), transposes
  the prototypes to 768 × 17, sums their squares over the 768 features (a sum starts at the word 0, which is 0) into a
  1 × 17 row, and reshapes gamma, beta and the class bias to rows 1 × 768, 1 × 768 and 1 × 200; the class matrix is
  used as launched. Window 0 cuts the features into eight blocks of four images (a block's coordinate is its index
  times its size plus the coordinate inside the block); every other window is one whole block.
-/
import proofs.«171693_j11201274708047_2_alg».proof.Proof.Gen.KernelIdeal.Frame
import proofs.«171693_j11201274708047_2_alg».proof.Proof.PartModel
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal.Laws

noncomputable section

namespace Cert.KernelEntry

open Cert.KernelIdeal Cert.KernelIdeal.Gen Cert.PartModel
open Idealize.ShloMosaic Idealize.ShloMosaic.TcCoe Idealize.SL.Sem Idealize.ShloMosaic.ValueIdx Idealize.ShloMosaic.StableHlo

variable (m : (ℓ : Loc nD τ sig) → Buf (Elt Ideal) ℓ) (c : Dev nD)

/-! ## The arguments as launched, typed as the specification's arrays -/

abbrev argX : ShX.Idx → EReal := m ((c : Thread nD τ).loc main_arg0)
abbrev argP : ShP.Idx → EReal := m ((c : Thread nD τ).loc main_arg1)
abbrev argG : ShD.Idx → EReal := m ((c : Thread nD τ).loc main_arg2)
abbrev argB : ShD.Idx → EReal := m ((c : Thread nD τ).loc main_arg3)
abbrev argW : ShW.Idx → EReal := m ((c : Thread nD τ).loc main_arg4)
abbrev argC : ShC.Idx → EReal := m ((c : Thread nD τ).loc main_arg5)

/-! ## What the host wrote before the region, array by array -/

/-- The reshaped features. -/
theorem V_v0 : (V m c main_v0 : S32x576x768.Idx → EReal)
    = shapeCast S32x576x768 (argX m c) shapeCasts_S32x24x24x768_S32x576x768 := by
  show StableHlo.after hostOps0 (fun b => m (c, b)) (Proc.devRef .tc main_v0) = _
  after_results
  rfl

/-- The transposed prototypes. -/
theorem V_v1 : (V m c main_v1 : S768x17.Idx → EReal)
    = transpose S768x17 [1, 0] (argP m c) transposes_S17x768_S768x17_1_0 := by
  show StableHlo.after hostOps0 (fun b => m (c, b)) (Proc.devRef .tc main_v1) = _
  after_results

/-- The prototypes' squared norms as a row. -/
theorem V_v5 : (V m c main_v5 : S1x17.Idx → EReal)
    = transpose S1x17 [1, 0] (broadcastInDim S17x1 ![0] bcast_S17_S17x1_0
        (Host.reduceAdd (F := Ideal) (mulf (F := Ideal) (φ := .f32) (argP m c) (argP m c)) (constant (F := Ideal) S_ .f32 0x00000000#32)
          reducesTo_S17x768_S17_d1 h_S_)) transposes_S17x1_S1x17_1_0 := by
  show StableHlo.after hostOps0 (fun b => m (c, b)) (Proc.devRef .tc main_v5) = _
  after_results

/-- gamma as a row. -/
theorem V_v6 : (V m c main_v6 : S1x768.Idx → EReal) = shapeCast S1x768 (argG m c) shapeCasts_S768_S1x768 := by
  show StableHlo.after hostOps0 (fun b => m (c, b)) (Proc.devRef .tc main_v6) = _
  after_results
  rfl

/-- beta as a row. -/
theorem V_v7 : (V m c main_v7 : S1x768.Idx → EReal) = shapeCast S1x768 (argB m c) shapeCasts_S768_S1x768 := by
  show StableHlo.after hostOps0 (fun b => m (c, b)) (Proc.devRef .tc main_v7) = _
  after_results
  rfl

/-- The class bias as a row. -/
theorem V_v8 : (V m c main_v8 : S1x200.Idx → EReal) = shapeCast S1x200 (argC m c) shapeCasts_S200_S1x200 := by
  show StableHlo.after hostOps0 (fun b => m (c, b)) (Proc.devRef .tc main_v8) = _
  after_results
  rfl

/-! ## The same arrays at an index -/

/-- Feature d of patch p of image b. -/
theorem v0_at (b : Fin 32) (p : Fin 576) (d : Fin 768) :
    (V m c main_v0 : S32x576x768.Idx → EReal) (ix3 b p d) = patch (argX m c) b p d := by
  rw [V_v0]
  unfold patch
  refine shapeCast_apply _ _ _ _ ?_
  have hb := b.isLt; have hp := p.isLt; have hd := d.isLt
  rw [Shape.rowMajor_val_four, Shape.rowMajor_val_three]
  show ((b.val * 24 + p.val / 24) * 24 + p.val % 24) * 768 + d.val = (b.val * 576 + p.val) * 768 + d.val
  omega

/-- Feature d of prototype k. -/
theorem v1_at (d : Fin 768) (k : Fin 17) :
    (V m c main_v1 : S768x17.Idx → EReal) (ix2 d k) = argP m c (ix2 k d) := by
  rw [V_v1]
  exact transpose_ix2_apply _ _ d k

/-- |P(k,·)|². -/
theorem v5_at (z : Fin 1) (k : Fin 17) :
    (V m c main_v5 : S1x17.Idx → EReal) (ix2 z k) = protoSq (argP m c) k := by
  have h : S17x768.Reduces [1] S17 := by decide
  rw [V_v5, transpose_ix2_apply _ _ z k]
  rw [broadcastInDim_apply _ bcast_S17_S17x1_0 _ (ix2 k z) (ix1 k) (fun a => match a with
    | ⟨0, _⟩ => by show k.val = if (17 : Nat) = 1 then 0 else k.val; rw [if_neg (by decide)])]
  simp only [Host.reduceAdd, Ideal.hostReduceAdd_def]
  rw [Ideal.hostReduceAdd_single reducesTo_S17x768_S17_d1 h]
  show Ideal.ofBits .f32 0x00000000#32 + _ = _
  rw [Ideal.ofBits_zero_f32, zero_add]
  unfold protoSq
  refine Finset.sum_congr rfl fun (d : Fin 768) _ => ?_
  have e : h.lift (ix1 k) d = ix2 k d :=
    funext fun a => Fin.ext (by match a with | ⟨0, _⟩ => rfl | ⟨1, _⟩ => rfl)
  rw [e]
  rfl

/-- gamma. -/
theorem v6_at (z : Fin 1) (d : Fin 768) :
    (V m c main_v6 : S1x768.Idx → EReal) (ix2 z d) = argG m c (ix1 d) := by
  rw [V_v6]
  exact shapeCast_a_1a_apply _ _ z d

/-- beta. -/
theorem v7_at (z : Fin 1) (d : Fin 768) :
    (V m c main_v7 : S1x768.Idx → EReal) (ix2 z d) = argB m c (ix1 d) := by
  rw [V_v7]
  exact shapeCast_a_1a_apply _ _ z d

/-- The class bias. -/
theorem v8_at (z : Fin 1) (cc : Fin 200) :
    (V m c main_v8 : S1x200.Idx → EReal) (ix2 z cc) = argC m c (ix1 cc) := by
  rw [V_v8]
  exact shapeCast_a_1a_apply _ _ z cc

/-! ## The input windows' blocks at an index -/

/-- Window 0's block at grid point t holds images 4t … 4t + 3. -/
theorem iblk0_at' (t : Fin cfg0.N) (j : Fin 4) (p : Fin 576) (d : Fin 768) (b : Fin 32) (hb : b.val = 4 * t.val + j.val) :
    (iblk m c 0 t : Vec Ideal S4x576x768 .f32) (ix3 j p d) = patch (argX m c) b p d := by
  have hi : win0_0.index t 0 = t.val ∧ win0_0.index t 1 = 0 ∧ win0_0.index t 2 = 0 := by
    rcases fin_N0 t with rfl | rfl | rfl | rfl | rfl | rfl | rfl | rfl <;> decide
  rw [← v0_at]
  unfold iblk
  rw [View.read_apply]
  show (V m c main_v0 : S32x576x768.Idx → EReal) _ = (V m c main_v0 : S32x576x768.Idx → EReal) _
  congr 1
  funext a
  apply Fin.ext
  match a with
  | ⟨0, _⟩ => show win0_0.index t 0 * 4 + 1 * j.val = b.val; rw [hi.1, hb]; omega
  | ⟨1, _⟩ => show win0_0.index t 1 * 576 + 1 * p.val = p.val; rw [hi.2.1]; omega
  | ⟨2, _⟩ => show win0_0.index t 2 * 768 + 1 * d.val = d.val; rw [hi.2.2]; omega

/-- The same with the image written out as 4t + j. -/
theorem iblk0_at (t : Fin cfg0.N) (j : Fin 4) (p : Fin 576) (d : Fin 768) :
    (iblk m c 0 t : Vec Ideal S4x576x768 .f32) (ix3 j p d)
      = patch (argX m c) ⟨4 * t.val + j.val, by have := t.isLt; have := j.isLt; have hN : cfg0.N = 8 := N_0; omega⟩ p d :=
  iblk0_at' m c t j p d _ rfl

/-- Window 1's one block is the transposed prototypes. -/
theorem iblk1_at (t : Fin cfg0.N) (d : Fin 768) (k : Fin 17) :
    (iblk m c 1 t : Vec Ideal S768x17 .f32) (ix2 d k) = argP m c (ix2 k d) := by
  have hi : win0_1.index t 0 = 0 ∧ win0_1.index t 1 = 0 := by
    rcases fin_N0 t with rfl | rfl | rfl | rfl | rfl | rfl | rfl | rfl <;> decide
  rw [← v1_at]
  unfold iblk
  rw [View.read_apply]
  show (V m c main_v1 : S768x17.Idx → EReal) _ = (V m c main_v1 : S768x17.Idx → EReal) _
  congr 1
  funext a
  apply Fin.ext
  match a with
  | ⟨0, _⟩ => show win0_1.index t 0 * 768 + 1 * d.val = d.val; rw [hi.1]; omega
  | ⟨1, _⟩ => show win0_1.index t 1 * 17 + 1 * k.val = k.val; rw [hi.2]; omega

/-- Window 2's one block is the row of the prototypes' squared norms. -/
theorem iblk2_at (t : Fin cfg0.N) (z : Fin 1) (k : Fin 17) :
    (iblk m c 2 t : Vec Ideal S1x17 .f32) (ix2 z k) = protoSq (argP m c) k := by
  have hi : win0_2.index t 0 = 0 ∧ win0_2.index t 1 = 0 := by
    rcases fin_N0 t with rfl | rfl | rfl | rfl | rfl | rfl | rfl | rfl <;> decide
  rw [← v5_at m c z k]
  unfold iblk
  rw [View.read_apply]
  show (V m c main_v5 : S1x17.Idx → EReal) _ = (V m c main_v5 : S1x17.Idx → EReal) _
  congr 1
  funext a
  apply Fin.ext
  match a with
  | ⟨0, _⟩ => show win0_2.index t 0 * 1 + 1 * z.val = z.val; rw [hi.1]; omega
  | ⟨1, _⟩ => show win0_2.index t 1 * 17 + 1 * k.val = k.val; rw [hi.2]; omega

/-- Window 3's one block is gamma as a row. -/
theorem iblk3_at (t : Fin cfg0.N) (z : Fin 1) (d : Fin 768) :
    (iblk m c 3 t : Vec Ideal S1x768 .f32) (ix2 z d) = argG m c (ix1 d) := by
  have hi : win0_3.index t 0 = 0 ∧ win0_3.index t 1 = 0 := by
    rcases fin_N0 t with rfl | rfl | rfl | rfl | rfl | rfl | rfl | rfl <;> decide
  rw [← v6_at m c z d]
  unfold iblk
  rw [View.read_apply]
  show (V m c main_v6 : S1x768.Idx → EReal) _ = (V m c main_v6 : S1x768.Idx → EReal) _
  congr 1
  funext a
  apply Fin.ext
  match a with
  | ⟨0, _⟩ => show win0_3.index t 0 * 1 + 1 * z.val = z.val; rw [hi.1]; omega
  | ⟨1, _⟩ => show win0_3.index t 1 * 768 + 1 * d.val = d.val; rw [hi.2]; omega

/-- Window 4's one block is beta as a row. -/
theorem iblk4_at (t : Fin cfg0.N) (z : Fin 1) (d : Fin 768) :
    (iblk m c 4 t : Vec Ideal S1x768 .f32) (ix2 z d) = argB m c (ix1 d) := by
  have hi : win0_4.index t 0 = 0 ∧ win0_4.index t 1 = 0 := by
    rcases fin_N0 t with rfl | rfl | rfl | rfl | rfl | rfl | rfl | rfl <;> decide
  rw [← v7_at m c z d]
  unfold iblk
  rw [View.read_apply]
  show (V m c main_v7 : S1x768.Idx → EReal) _ = (V m c main_v7 : S1x768.Idx → EReal) _
  congr 1
  funext a
  apply Fin.ext
  match a with
  | ⟨0, _⟩ => show win0_4.index t 0 * 1 + 1 * z.val = z.val; rw [hi.1]; omega
  | ⟨1, _⟩ => show win0_4.index t 1 * 768 + 1 * d.val = d.val; rw [hi.2]; omega

/-- Window 5's one block is the class matrix as launched. -/
theorem iblk5_at (t : Fin cfg0.N) (d : Fin 768) (cc : Fin 200) :
    (iblk m c 5 t : Vec Ideal S768x200 .f32) (ix2 d cc) = argW m c (ix2 d cc) := by
  have hi : win0_5.index t 0 = 0 ∧ win0_5.index t 1 = 0 := by
    rcases fin_N0 t with rfl | rfl | rfl | rfl | rfl | rfl | rfl | rfl <;> decide
  unfold iblk
  rw [View.read_apply]
  show (V m c main_arg4 : S768x200.Idx → EReal) _ = (m ((c : Thread nD τ).loc main_arg4) : S768x200.Idx → EReal) _
  rw [V_main_arg4]
  congr 1
  funext a
  apply Fin.ext
  match a with
  | ⟨0, _⟩ => show win0_5.index t 0 * 768 + 1 * d.val = d.val; rw [hi.1]; omega
  | ⟨1, _⟩ => show win0_5.index t 1 * 200 + 1 * cc.val = cc.val; rw [hi.2]; omega

/-- Window 6's one block is the class bias as a row. -/
theorem iblk6_at (t : Fin cfg0.N) (z : Fin 1) (cc : Fin 200) :
    (iblk m c 6 t : Vec Ideal S1x200 .f32) (ix2 z cc) = argC m c (ix1 cc) := by
  have hi : win0_6.index t 0 = 0 ∧ win0_6.index t 1 = 0 := by
    rcases fin_N0 t with rfl | rfl | rfl | rfl | rfl | rfl | rfl | rfl <;> decide
  rw [← v8_at m c z cc]
  unfold iblk
  rw [View.read_apply]
  show (V m c main_v8 : S1x200.Idx → EReal) _ = (V m c main_v8 : S1x200.Idx → EReal) _
  congr 1
  funext a
  apply Fin.ext
  match a with
  | ⟨0, _⟩ => show win0_6.index t 0 * 1 + 1 * z.val = z.val; rw [hi.1]; omega
  | ⟨1, _⟩ => show win0_6.index t 1 * 200 + 1 * cc.val = cc.val; rw [hi.2]; omega

end Cert.KernelEntry

end
-- ==== Proof.KernelArrays.lean ====
/-
  The kernel's four result arrays after the run.

  The grid has 8 points; point t handles images 4t … 4t+3. Each output window's block at point t is the four
  consecutive images' slabs of its array, so the point that writes image b is b / 4, every image is written, and what
  is written at (b, ·, ·) is the model's value for image b: the arrays after the run are the model's arrays — the
  assignment maps with the patch axis still flat, and the averaged scores with a unit middle axis, which the two host
  reshapes after the region then bring to their final shapes.
-/
import proofs.«171693_j11201274708047_2_alg».proof.Proof.Gen.KernelIdeal.Frame
import proofs.«171693_j11201274708047_2_alg».proof.Proof.BlockValues
import proofs.«171693_j11201274708047_2_alg».proof.Proof.EntryArrays
import Idealize.ShloMosaic.Lib.Pipeline.Value
import Idealize.ShloMosaic.Lib.StableHlo.Run

set_option maxRecDepth 16384

noncomputable section

namespace Cert.KernelArrays

open Idealize.ShloMosaic Idealize.ShloMosaic.ValueIdx Cert.KernelIdeal Cert.KernelIdeal.Gen Cert.PartModel Cert.KernelBlock Cert.KernelEntry Idealize.ShloMosaic.TcCoe Idealize.SL.Sem

open Idealize.ShloMosaic.Pipeline (Dat)

variable (m : (ℓ : Loc nD τ sig) → Buf (Elt Ideal) ℓ) (c : Dev nD)

/-- Point t as a number below 8. -/
abbrev pt8 (t : Fin cfg0.N) : Fin 8 := Fin.cast N_0 t

/-- Slab j of the patch-feature block at point t is image 4t + j. -/
theorem iblk0_img (t : Fin cfg0.N) (j : Fin 4) (p : Fin 576) (d : Fin 768) :
    (iblk m c 0 t : Vec Ideal S4x576x768 .f32) (ix3 j p d) = patch (argX m c) (img (pt8 t) j) p d :=
  iblk0_at' m c t j p d (img (pt8 t) j) rfl

/-! ## The arrays -/

/-- The assignment maps before the patch axis is split into the 24×24 grid. -/
def mapsArr : S32x17x576.Idx → EReal := fun i => assignShort (argX m c) (argP m c) (i 0) (i 2) (i 1)
def normedArr : S32x16x768.Idx → EReal := outNormed (assignShort (argX m c) (argP m c)) (argX m c) (argG m c) (argB m c)
def logitArr : S32x16x200.Idx → EReal :=
  outLogits (assignShort (argX m c) (argP m c)) (argX m c) (argG m c) (argB m c) (argW m c) (argC m c)
/-- The averaged scores with their unit middle axis. -/
def pooledArr : S32x1x200.Idx → EReal := fun i =>
  pooledLogit (assignShort (argX m c) (argP m c)) (argX m c) (argG m c) (argB m c) (argW m c) (argC m c) (i 0) (i 2)

/-! ## The assignment maps (output window 7) -/

theorem idx7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)

/-- What point t writes back is block t of the array. -/
theorem flushed7_eq (t : Fin cfg0.N) :
    (dats m 0 c).flushed 7 t = ((cfg0.win 7).blk t).view.read (Elt Ideal) (mapsArr m c) := by
  show (cfg0.win 7).cut (grid0.coords t) ((dats m 0 c).after 7 t) = _
  rw [after0_7]
  funext y
  obtain ⟨j, a, b, rfl⟩ : ∃ (j : Fin 4) (a : Fin 17) (b : Fin 576), y = ix3 j a b := ⟨y 0, y 1, y 2, eq_ix3 y⟩
  refine (mapsBlock_at (argX m c) (argP m c) (pt8 t) _ _ _ _ _ _ _ (iblk0_img m c t) (iblk1_at m c t) (iblk2_at m c t (0 : Fin 1)) j a b).trans ?_
  obtain ⟨e0, e1, e2⟩ := idx7 t
  show _ = mapsArr m c (((cfg0.win 7).blk t).view.emb (ix3 j a b))
  have he : ((cfg0.win 7).blk t).view.emb (ix3 j a b) = ix3 (img (pt8 t) j) a b := by
    funext ax; apply Fin.ext
    match ax with
    | ⟨0, _⟩ => show win0_7.index t (0 : Fin 3) * 4 + 1 * j.val = 4 * t.val + j.val; omega
    | ⟨1, _⟩ => show win0_7.index t (1 : Fin 3) * 17 + 1 * a.val = a.val; omega
    | ⟨2, _⟩ => show win0_7.index t (2 : Fin 3) * 576 + 1 * b.val = b.val; omega
  rw [he]
  rfl

theorem mem_blk7 (t : Fin cfg0.N) (i : S32x17x576.Idx) :
    i ∈ ((cfg0.win 7).blk t).view.set ↔ ∀ a : Fin 3, win0_7.index t a * S4x17x576.size a ≤ (i a).val
      ∧ (i a).val < win0_7.index t a * S4x17x576.size a + S4x17x576.size a := by
  show i ∈ ((View.whole main_v9_0).slice (win0_7.rect t)).set ↔ _
  rw [View.set_slice_whole, Rect.mem_set_unit]
  exact Iff.rfl

/-- Image b is written at point b / 4. -/
theorem cover7 (i : S32x17x576.Idx) : ∃ t : Fin cfg0.N, (cfg0.win 7).flush t = true ∧ i ∈ ((cfg0.win 7).blk t).view.set := by
  have hi0 : (i 0).val < 32 := (i 0).isLt
  have hi1 : (i 1).val < 17 := (i 1).isLt
  have hi2 : (i 2).val < 576 := (i 2).isLt
  have ht : (i 0).val / 4 < cfg0.N := by rw [show cfg0.N = 8 from N_0]; omega
  refine ⟨⟨(i 0).val / 4, ht⟩, flush0_7 _, ?_⟩
  obtain ⟨e0, e1, e2⟩ := idx7 ⟨(i 0).val / 4, ht⟩
  rw [mem_blk7]
  intro a
  match a with
  | ⟨0, _⟩ =>
    show win0_7.index ⟨(i 0).val / 4, ht⟩ (0 : Fin 3) * 4 ≤ (i 0).val ∧ (i 0).val < win0_7.index ⟨(i 0).val / 4, ht⟩ (0 : Fin 3) * 4 + 4
    rw [e0]; show (i 0).val / 4 * 4 ≤ _ ∧ _ < (i 0).val / 4 * 4 + 4; omega
  | ⟨1, _⟩ =>
    show win0_7.index ⟨(i 0).val / 4, ht⟩ (1 : Fin 3) * 17 ≤ (i 1).val ∧ (i 1).val < win0_7.index ⟨(i 0).val / 4, ht⟩ (1 : Fin 3) * 17 + 17
    rw [e1]; omega
  | ⟨2, _⟩ =>
    show win0_7.index ⟨(i 0).val / 4, ht⟩ (2 : Fin 3) * 576 ≤ (i 2).val ∧ (i 2).val < win0_7.index ⟨(i 0).val / 4, ht⟩ (2 : Fin 3) * 576 + 576
    rw [e2]; omega

/-- The array after the run. -/
theorem final7 : (dats m 0 c).arrAt 7 cfg0.N = mapsArr m c :=
  (dats m 0 c).arrAt_eq_of_cover 7 (mapsArr m c) (fun t _ => flushed7_eq m c t) (cover7)

/-! ## The normalised pooled features (output window 8) -/

theorem idx8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)

/-- What point t writes back is block t of the array. -/
theorem flushed8_eq (t : Fin cfg0.N) :
    (dats m 0 c).flushed 8 t = ((cfg0.win 8).blk t).view.read (Elt Ideal) (normedArr m c) := by
  show (cfg0.win 8).cut (grid0.coords t) ((dats m 0 c).after 8 t) = _
  rw [after0_8]
  funext y
  obtain ⟨j, a, b, rfl⟩ : ∃ (j : Fin 4) (a : Fin 16) (b : Fin 768), y = ix3 j a b := ⟨y 0, y 1, y 2, eq_ix3 y⟩
  refine (normedBlock_at (argX m c) (argP m c) (argG m c) (argB m c) (pt8 t) _ _ _ _ _ _ _ (iblk0_img m c t) (iblk1_at m c t) (iblk2_at m c t (0 : Fin 1)) (iblk3_at m c t (0 : Fin 1)) (iblk4_at m c t (0 : Fin 1)) j a b).trans ?_
  obtain ⟨e0, e1, e2⟩ := idx8 t
  show _ = normedArr m c (((cfg0.win 8).blk t).view.emb (ix3 j a b))
  have he : ((cfg0.win 8).blk t).view.emb (ix3 j a b) = ix3 (img (pt8 t) j) a b := by
    funext ax; apply Fin.ext
    match ax with
    | ⟨0, _⟩ => show win0_8.index t (0 : Fin 3) * 4 + 1 * j.val = 4 * t.val + j.val; omega
    | ⟨1, _⟩ => show win0_8.index t (1 : Fin 3) * 16 + 1 * a.val = a.val; omega
    | ⟨2, _⟩ => show win0_8.index t (2 : Fin 3) * 768 + 1 * b.val = b.val; omega
  rw [he]
  rfl

theorem mem_blk8 (t : Fin cfg0.N) (i : S32x16x768.Idx) :
    i ∈ ((cfg0.win 8).blk t).view.set ↔ ∀ a : Fin 3, win0_8.index t a * S4x16x768.size a ≤ (i a).val
      ∧ (i a).val < win0_8.index t a * S4x16x768.size a + S4x16x768.size a := by
  show i ∈ ((View.whole main_v9_1).slice (win0_8.rect t)).set ↔ _
  rw [View.set_slice_whole, Rect.mem_set_unit]
  exact Iff.rfl

/-- Image b is written at point b / 4. -/
theorem cover8 (i : S32x16x768.Idx) : ∃ t : Fin cfg0.N, (cfg0.win 8).flush t = true ∧ i ∈ ((cfg0.win 8).blk t).view.set := by
  have hi0 : (i 0).val < 32 := (i 0).isLt
  have hi1 : (i 1).val < 16 := (i 1).isLt
  have hi2 : (i 2).val < 768 := (i 2).isLt
  have ht : (i 0).val / 4 < cfg0.N := by rw [show cfg0.N = 8 from N_0]; omega
  refine ⟨⟨(i 0).val / 4, ht⟩, flush0_8 _, ?_⟩
  obtain ⟨e0, e1, e2⟩ := idx8 ⟨(i 0).val / 4, ht⟩
  rw [mem_blk8]
  intro a
  match a with
  | ⟨0, _⟩ =>
    show win0_8.index ⟨(i 0).val / 4, ht⟩ (0 : Fin 3) * 4 ≤ (i 0).val ∧ (i 0).val < win0_8.index ⟨(i 0).val / 4, ht⟩ (0 : Fin 3) * 4 + 4
    rw [e0]; show (i 0).val / 4 * 4 ≤ _ ∧ _ < (i 0).val / 4 * 4 + 4; omega
  | ⟨1, _⟩ =>
    show win0_8.index ⟨(i 0).val / 4, ht⟩ (1 : Fin 3) * 16 ≤ (i 1).val ∧ (i 1).val < win0_8.index ⟨(i 0).val / 4, ht⟩ (1 : Fin 3) * 16 + 16
    rw [e1]; omega
  | ⟨2, _⟩ =>
    show win0_8.index ⟨(i 0).val / 4, ht⟩ (2 : Fin 3) * 768 ≤ (i 2).val ∧ (i 2).val < win0_8.index ⟨(i 0).val / 4, ht⟩ (2 : Fin 3) * 768 + 768
    rw [e2]; omega

/-- The array after the run. -/
theorem final8 : (dats m 0 c).arrAt 8 cfg0.N = normedArr m c :=
  (dats m 0 c).arrAt_eq_of_cover 8 (normedArr m c) (fun t _ => flushed8_eq m c t) (cover8)

/-! ## The parts' class scores (output window 9) -/

theorem idx9 : ∀ t : Fin cfg0.N, win0_9.index t (0 : Fin 3) = t.val ∧ win0_9.index t (1 : Fin 3) = 0 ∧ win0_9.index t (2 : Fin 3) = 0 :=
  (by decide +kernel : ∀ t : Fin grid0.N, win0_9.index t (0 : Fin 3) = t.val ∧ win0_9.index t (1 : Fin 3) = 0 ∧ win0_9.index t (2 : Fin 3) = 0)

/-- What point t writes back is block t of the array. -/
theorem flushed9_eq (t : Fin cfg0.N) :
    (dats m 0 c).flushed 9 t = ((cfg0.win 9).blk t).view.read (Elt Ideal) (logitArr m c) := by
  show (cfg0.win 9).cut (grid0.coords t) ((dats m 0 c).after 9 t) = _
  rw [after0_9]
  funext y
  obtain ⟨j, a, b, rfl⟩ : ∃ (j : Fin 4) (a : Fin 16) (b : Fin 200), y = ix3 j a b := ⟨y 0, y 1, y 2, eq_ix3 y⟩
  refine (logitBlock_at (argX m c) (argP m c) (argG m c) (argB m c) (argW m c) (argC m c) (pt8 t) _ _ _ _ _ _ _ (iblk0_img m c t) (iblk1_at m c t) (iblk2_at m c t (0 : Fin 1)) (iblk3_at m c t (0 : Fin 1)) (iblk4_at m c t (0 : Fin 1)) (iblk5_at m c t) (iblk6_at m c t (0 : Fin 1)) j a b).trans ?_
  obtain ⟨e0, e1, e2⟩ := idx9 t
  show _ = logitArr m c (((cfg0.win 9).blk t).view.emb (ix3 j a b))
  have he : ((cfg0.win 9).blk t).view.emb (ix3 j a b) = ix3 (img (pt8 t) j) a b := by
    funext ax; apply Fin.ext
    match ax with
    | ⟨0, _⟩ => show win0_9.index t (0 : Fin 3) * 4 + 1 * j.val = 4 * t.val + j.val; omega
    | ⟨1, _⟩ => show win0_9.index t (1 : Fin 3) * 16 + 1 * a.val = a.val; omega
    | ⟨2, _⟩ => show win0_9.index t (2 : Fin 3) * 200 + 1 * b.val = b.val; omega
  rw [he]
  rfl

theorem mem_blk9 (t : Fin cfg0.N) (i : S32x16x200.Idx) :
    i ∈ ((cfg0.win 9).blk t).view.set ↔ ∀ a : Fin 3, win0_9.index t a * S4x16x200.size a ≤ (i a).val
      ∧ (i a).val < win0_9.index t a * S4x16x200.size a + S4x16x200.size a := by
  show i ∈ ((View.whole main_v9_2).slice (win0_9.rect t)).set ↔ _
  rw [View.set_slice_whole, Rect.mem_set_unit]
  exact Iff.rfl

/-- Image b is written at point b / 4. -/
theorem cover9 (i : S32x16x200.Idx) : ∃ t : Fin cfg0.N, (cfg0.win 9).flush t = true ∧ i ∈ ((cfg0.win 9).blk t).view.set := by
  have hi0 : (i 0).val < 32 := (i 0).isLt
  have hi1 : (i 1).val < 16 := (i 1).isLt
  have hi2 : (i 2).val < 200 := (i 2).isLt
  have ht : (i 0).val / 4 < cfg0.N := by rw [show cfg0.N = 8 from N_0]; omega
  refine ⟨⟨(i 0).val / 4, ht⟩, flush0_9 _, ?_⟩
  obtain ⟨e0, e1, e2⟩ := idx9 ⟨(i 0).val / 4, ht⟩
  rw [mem_blk9]
  intro a
  match a with
  | ⟨0, _⟩ =>
    show win0_9.index ⟨(i 0).val / 4, ht⟩ (0 : Fin 3) * 4 ≤ (i 0).val ∧ (i 0).val < win0_9.index ⟨(i 0).val / 4, ht⟩ (0 : Fin 3) * 4 + 4
    rw [e0]; show (i 0).val / 4 * 4 ≤ _ ∧ _ < (i 0).val / 4 * 4 + 4; omega
  | ⟨1, _⟩ =>
    show win0_9.index ⟨(i 0).val / 4, ht⟩ (1 : Fin 3) * 16 ≤ (i 1).val ∧ (i 1).val < win0_9.index ⟨(i 0).val / 4, ht⟩ (1 : Fin 3) * 16 + 16
    rw [e1]; omega
  | ⟨2, _⟩ =>
    show win0_9.index ⟨(i 0).val / 4, ht⟩ (2 : Fin 3) * 200 ≤ (i 2).val ∧ (i 2).val < win0_9.index ⟨(i 0).val / 4, ht⟩ (2 : Fin 3) * 200 + 200
    rw [e2]; omega

/-- The array after the run. -/
theorem final9 : (dats m 0 c).arrAt 9 cfg0.N = logitArr m c :=
  (dats m 0 c).arrAt_eq_of_cover 9 (logitArr m c) (fun t _ => flushed9_eq m c t) (cover9)

/-! ## The averaged class scores (output window 10) -/

theorem idx10 : ∀ t : Fin cfg0.N, win0_10.index t (0 : Fin 3) = t.val ∧ win0_10.index t (1 : Fin 3) = 0 ∧ win0_10.index t (2 : Fin 3) = 0 :=
  (by decide +kernel : ∀ t : Fin grid0.N, win0_10.index t (0 : Fin 3) = t.val ∧ win0_10.index t (1 : Fin 3) = 0 ∧ win0_10.index t (2 : Fin 3) = 0)

/-- What point t writes back is block t of the array. -/
theorem flushed10_eq (t : Fin cfg0.N) :
    (dats m 0 c).flushed 10 t = ((cfg0.win 10).blk t).view.read (Elt Ideal) (pooledArr m c) := by
  show (cfg0.win 10).cut (grid0.coords t) ((dats m 0 c).after 10 t) = _
  rw [after0_10]
  funext y
  obtain ⟨j, a, b, rfl⟩ : ∃ (j : Fin 4) (a : Fin 1) (b : Fin 200), y = ix3 j a b := ⟨y 0, y 1, y 2, eq_ix3 y⟩
  refine (pooledBlock_at (argX m c) (argP m c) (argG m c) (argB m c) (argW m c) (argC m c) (pt8 t) _ _ _ _ _ _ _ (iblk0_img m c t) (iblk1_at m c t) (iblk2_at m c t (0 : Fin 1)) (iblk3_at m c t (0 : Fin 1)) (iblk4_at m c t (0 : Fin 1)) (iblk5_at m c t) (iblk6_at m c t (0 : Fin 1)) j a b).trans ?_
  obtain ⟨e0, e1, e2⟩ := idx10 t
  show _ = pooledArr m c (((cfg0.win 10).blk t).view.emb (ix3 j a b))
  have he : ((cfg0.win 10).blk t).view.emb (ix3 j a b) = ix3 (img (pt8 t) j) a b := by
    funext ax; apply Fin.ext
    match ax with
    | ⟨0, _⟩ => show win0_10.index t (0 : Fin 3) * 4 + 1 * j.val = 4 * t.val + j.val; omega
    | ⟨1, _⟩ => show win0_10.index t (1 : Fin 3) * 1 + 1 * a.val = a.val; omega
    | ⟨2, _⟩ => show win0_10.index t (2 : Fin 3) * 200 + 1 * b.val = b.val; omega
  rw [he]
  rfl

theorem mem_blk10 (t : Fin cfg0.N) (i : S32x1x200.Idx) :
    i ∈ ((cfg0.win 10).blk t).view.set ↔ ∀ a : Fin 3, win0_10.index t a * S4x1x200.size a ≤ (i a).val
      ∧ (i a).val < win0_10.index t a * S4x1x200.size a + S4x1x200.size a := by
  show i ∈ ((View.whole main_v9_3).slice (win0_10.rect t)).set ↔ _
  rw [View.set_slice_whole, Rect.mem_set_unit]
  exact Iff.rfl

/-- Image b is written at point b / 4. -/
theorem cover10 (i : S32x1x200.Idx) : ∃ t : Fin cfg0.N, (cfg0.win 10).flush t = true ∧ i ∈ ((cfg0.win 10).blk t).view.set := by
  have hi0 : (i 0).val < 32 := (i 0).isLt
  have hi1 : (i 1).val < 1 := (i 1).isLt
  have hi2 : (i 2).val < 200 := (i 2).isLt
  have ht : (i 0).val / 4 < cfg0.N := by rw [show cfg0.N = 8 from N_0]; omega
  refine ⟨⟨(i 0).val / 4, ht⟩, flush0_10 _, ?_⟩
  obtain ⟨e0, e1, e2⟩ := idx10 ⟨(i 0).val / 4, ht⟩
  rw [mem_blk10]
  intro a
  match a with
  | ⟨0, _⟩ =>
    show win0_10.index ⟨(i 0).val / 4, ht⟩ (0 : Fin 3) * 4 ≤ (i 0).val ∧ (i 0).val < win0_10.index ⟨(i 0).val / 4, ht⟩ (0 : Fin 3) * 4 + 4
    rw [e0]; show (i 0).val / 4 * 4 ≤ _ ∧ _ < (i 0).val / 4 * 4 + 4; omega
  | ⟨1, _⟩ =>
    show win0_10.index ⟨(i 0).val / 4, ht⟩ (1 : Fin 3) * 1 ≤ (i 1).val ∧ (i 1).val < win0_10.index ⟨(i 0).val / 4, ht⟩ (1 : Fin 3) * 1 + 1
    rw [e1]; omega
  | ⟨2, _⟩ =>
    show win0_10.index ⟨(i 0).val / 4, ht⟩ (2 : Fin 3) * 200 ≤ (i 2).val ∧ (i 2).val < win0_10.index ⟨(i 0).val / 4, ht⟩ (2 : Fin 3) * 200 + 200
    rw [e2]; omega

/-- The array after the run. -/
theorem final10 : (dats m 0 c).arrAt 10 cfg0.N = pooledArr m c :=
  (dats m 0 c).arrAt_eq_of_cover 10 (pooledArr m c) (fun t _ => flushed10_eq m c t) (cover10)

end Cert.KernelArrays

end
-- ==== Proof.KernelRun.lean ====
/-
  The kernel's run, read: the four results as the model's arrays at the short-score assignment.

  After the region two host reshapes give the results their final shapes: the maps' flat patch axis is split into the
  24×24 grid — entry (b, k, h, w) is the flat entry (b, k, 24·h + w) — and the averaged scores lose their unit middle
  axis. The two other results are the region's arrays themselves. The arguments end as they began.
-/
import proofs.«171693_j11201274708047_2_alg».proof.Proof.Gen.KernelIdeal.Frame
import proofs.«171693_j11201274708047_2_alg».proof.Proof.KernelArrays
import Idealize.ShloMosaic.Lib.Pipeline.Value
import Idealize.ShloMosaic.Lib.StableHlo.Run

set_option maxRecDepth 16384

noncomputable section

namespace Cert.KernelRun

open Idealize.ShloMosaic Idealize.ShloMosaic.ValueIdx Cert.KernelIdeal Cert.KernelIdeal.Gen Cert.PartModel Cert.KernelBlock Cert.KernelEntry Cert.KernelArrays Idealize.ShloMosaic.TcCoe Idealize.SL.Sem

open Idealize.ShloMosaic.Pipeline (Dat)

variable (m : (ℓ : Loc nD τ sig) → Buf (Elt Ideal) ℓ) (ρ : Dev nD → PrngReg) (c : Dev nD)

/-- The maps after the reshape that splits the patch axis. -/
theorem tail_maps : Pipeline.afterTail₀ cfgs (dats m) 0 (V0 m) [hostOps1] c main_v10
    = (outMaps (assignShort (argX m c) (argP m c)) : S32x17x24x24.Idx → EReal) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.tc.devRef main_v9_0) = mapsArr m c :=
    (Pipeline.withArrays_arr spec0 launch0.win.arr_inj c _ _ 7).trans (final7 m c)
  funext i
  obtain ⟨b, k, h, w, rfl⟩ : ∃ (b : Fin 32) (k : Fin 17) (h w : Fin 24), i = ix4 b k h w := ⟨i 0, i 1, i 2, i 3, eq_ix4 i⟩
  show shapeCast S32x17x24x24 (Pipeline.withArrays (cfgs 0).spec c (V0 m c) (fun w => (dats m 0 c).arrAt w (cfgs 0).N) (Proc.tc.devRef main_v9_0))
    shapeCasts_S32x17x576_S32x17x24x24 (ix4 b k h w) = _
  rw [hw, shapeCast_apply (mapsArr m c) shapeCasts_S32x17x576_S32x17x24x24 (ix4 b k h w) (ix3 b k (patchOf h w)) (by
    rw [Shape.rowMajor_val_three, Shape.rowMajor_val_four]
    show (b.val * 17 + k.val) * 576 + (h.val * 24 + w.val) = ((b.val * 17 + k.val) * 24 + h.val) * 24 + w.val
    ring)]
  rfl

/-- The averaged scores after the reshape that drops the unit axis. -/
theorem tail_pooled : Pipeline.afterTail₀ cfgs (dats m) 0 (V0 m) [hostOps1] c main_v11
    = (outPooled (assignShort (argX m c) (argP m c)) (argX m c) (argG m c) (argB m c) (argW m c) (argC m c) : S32x200.Idx → EReal) := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.tc.devRef main_v9_3) = pooledArr m c :=
    (Pipeline.withArrays_arr spec0 launch0.win.arr_inj c _ _ 10).trans (final10 m c)
  funext i
  obtain ⟨b, cc, rfl⟩ : ∃ (b : Fin 32) (cc : Fin 200), i = ix2 b cc := ⟨i 0, i 1, eq_ix2 i⟩
  show shapeCast S32x200 (Pipeline.withArrays (cfgs 0).spec c (V0 m c) (fun w => (dats m 0 c).arrAt w (cfgs 0).N) (Proc.tc.devRef main_v9_3))
    shapeCasts_S32x1x200_S32x200 (ix2 b cc) = _
  rw [hw, shapeCast_apply (pooledArr m c) shapeCasts_S32x1x200_S32x200 (ix2 b cc) (ix3 b (0 : Fin 1) cc) (by
    rw [Shape.rowMajor_val_three, Shape.rowMajor_val_two]
    show (b.val * 1 + 0) * 200 + cc.val = b.val * 200 + cc.val
    ring)]
  rfl

/-- The run: every weakly fair execution ends with the four results at the model's arrays and the arguments unchanged. -/
theorem run : θ_run defs (onTc (τ := τ) (main (F := Ideal))) ⟨m, fun _ => 0, ρ⟩ (fun r => ∀ c : Dev nD,
      r.2.mem ((c.tc : Thread nD τ).loc main_v10) = (outMaps (assignShort (argX m c) (argP m c)) : S32x17x24x24.Idx → EReal)
      ∧ r.2.mem ((c.tc : Thread nD τ).loc main_v9_1)
          = (outNormed (assignShort (argX m c) (argP m c)) (argX m c) (argG m c) (argB m c) : S32x16x768.Idx → EReal)
      ∧ r.2.mem ((c.tc : Thread nD τ).loc main_v9_2)
          = (outLogits (assignShort (argX m c) (argP m c)) (argX m c) (argG m c) (argB m c) (argW m c) (argC m c) : S32x16x200.Idx → EReal)
      ∧ r.2.mem ((c.tc : Thread nD τ).loc main_v11)
          = (outPooled (assignShort (argX m c) (argP m c)) (argX m c) (argG m c) (argB m c) (argW m c) (argC m c) : S32x200.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v10 (Pipeline.mem_restRefs_of main_v10 (by decide) (by decide))).trans (tail_maps m c),
      ((h c).1 8).trans (final8 m c),
      ((h c).1 9).trans (final9 m c),
      ((h c).2 main_v11 (Pipeline.mem_restRefs_of main_v11 (by decide) (by decide))).trans (tail_pooled m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c))),
      ((h c).2 main_arg5 (Pipeline.mem_restRefs_of main_arg5 (by decide) (by decide))).trans (W_main_arg5 m (dats m) c)⟩)
    (run_main m ρ)

end Cert.KernelRun

end
-- ==== Proof.RefIsModelA.lean ====
/-
  The reference program's softmax, read index by index: its assignment array is the specification's
  assignment computed from minus the squared distance, and its first result is that assignment laid out
  as 32 × 17 × 24 × 24.

  Each lemma reads one intermediate array of the reference at explicit coordinates. The chain is
    patches (the reshape reads x at (b, p / 24, p % 24, d)),
    |x|², |P_k|², ⟨x, P_k⟩ (sums over the 768 features; a sum starts at the word 0, which is 0),
    the score −((|x|² − 2·⟨x,P_k⟩) + |P_k|²),
    the row maximum (the reference takes max (−inf word) (fold of max from the −inf word); a fold of max is at
    least its start, so the outer max is the fold itself),
    the exponentials, their sum, the quotient.
-/
import proofs.«171693_j11201274708047_2_alg».proof.Proof.Gen.ReferenceIdeal.Read
import proofs.«171693_j11201274708047_2_alg».proof.Proof.PartModel
import Idealize.ShloMosaic.Lib.ValueIdx
import Idealize.ShloMosaic.PureOps.Ideal.Laws
import Idealize.ShloMosaic.PureOps.Reduce

noncomputable section

namespace Cert.RefModel

open Cert.ReferenceIdeal Cert.ReferenceIdeal.Gen Cert.ReferenceIdeal.Read Cert.PartModel
open Idealize.ShloMosaic Idealize.ShloMosaic.ValueIdx

variable (x0 : (⟨S32x24x24x768, .f32⟩ : BufTy).Contents (Elt Ideal)) (x1 : (⟨S17x768, .f32⟩ : BufTy).Contents (Elt Ideal))

/-- The reshape to 32 × 576 × 768 reads feature d of patch p of image b. -/
theorem patch_at (b : Fin 32) (p : Fin 576) (d : Fin 768) :
    val_main_v0 (F := Ideal) x0 (ix3 b p d) = patch x0 b p d := by
  rw [val_main_v0_apply]
  unfold patch
  refine congrArg x0 (funext fun a => Fin.ext ?_)
  have hb := b.isLt; have hp := p.isLt; have hd := d.isLt
  match a with
  | ⟨0, _⟩ => show ((b.val * 576 + p.val) * 768 + d.val) / 442368 = b.val; omega
  | ⟨1, _⟩ => show ((b.val * 576 + p.val) * 768 + d.val) / 18432 % 24 = p.val / 24; omega
  | ⟨2, _⟩ => show ((b.val * 576 + p.val) * 768 + d.val) / 768 % 24 = p.val % 24; omega
  | ⟨3, _⟩ => show ((b.val * 576 + p.val) * 768 + d.val) % 768 = d.val; omega

/-- |x(b,p,·)|². -/
theorem patchSq_at (b : Fin 32) (p : Fin 576) :
    val_main_v2 (F := Ideal) x0 (ix2 b p) = patchSq x0 b p := by
  rw [val_main_v2_apply, val_main_cst_apply, Ideal.ofBits_def, Ideal.ofBits_zero_f32, zero_add]
  unfold patchSq
  refine Finset.sum_congr rfl fun d _ => ?_
  have e : idx_main_v2 (ix2 b p) d = ix3 b p d :=
    funext fun a => Fin.ext (by match a with | ⟨0, _⟩ => rfl | ⟨1, _⟩ => rfl | ⟨2, _⟩ => rfl)
  rw [e, val_main_v1_apply, patch_at]
  rfl

/-- |P(k,·)|². -/
theorem protoSq_at (k : Fin 17) :
    val_main_v5 (F := Ideal) x1 (ix1 k) = protoSq x1 k := by
  rw [val_main_v5_apply, val_main_cst_0_apply, Ideal.ofBits_def, Ideal.ofBits_zero_f32, zero_add]
  unfold protoSq
  refine Finset.sum_congr rfl fun d _ => ?_
  have e : idx_main_v5 (ix1 k) d = ix2 k d :=
    funext fun a => Fin.ext (by match a with | ⟨0, _⟩ => rfl | ⟨1, _⟩ => rfl)
  rw [e, val_main_v4_apply]
  rfl

/-- ⟨x(b,p,·), P(k,·)⟩. -/
theorem inner_at (b : Fin 32) (p : Fin 576) (k : Fin 17) :
    val_main_v6 (F := Ideal) x0 x1 (ix3 b p k) = PartModel.inner x0 x1 b p k := by
  rw [val_main_v6_apply]
  unfold PartModel.inner
  refine Finset.sum_congr rfl fun d _ => ?_
  have el : lidx_main_v6 (ix3 b p k) d = ix3 b p d :=
    funext fun a => Fin.ext (by match a with | ⟨0, _⟩ => rfl | ⟨1, _⟩ => rfl | ⟨2, _⟩ => rfl)
  have er : ridx_main_v6 (ix3 b p k) d = ix2 k d :=
    funext fun a => Fin.ext (by match a with | ⟨0, _⟩ => rfl | ⟨1, _⟩ => rfl)
  rw [el, er, patch_at]

/-- The reference's score: minus the expanded squared distance. -/
theorem score_at (b : Fin 32) (p : Fin 576) (k : Fin 17) :
    val_main_v14 (F := Ideal) x0 x1 (ix3 b p k) = scoreDist x0 x1 b p k := by
  have e9 : idx_main_v3 (idx_main_v9 (ix3 b p k)) = ix2 b p :=
    funext fun a => Fin.ext (by match a with | ⟨0, _⟩ => rfl | ⟨1, _⟩ => rfl)
  have e12 : idx_main_v11 (idx_main_v12 (ix3 b p k)) = ix1 k :=
    funext fun a => Fin.ext (by match a with | ⟨0, _⟩ => rfl)
  rw [val_main_v14_apply, val_main_v13_apply, val_main_v10_apply, val_main_v9_apply, val_main_v3_apply, e9,
    val_main_v8_apply, val_main_v7_apply, val_main_cst_1_apply, val_main_v12_apply, val_main_v11_apply, e12,
    patchSq_at, protoSq_at, inner_at]
  rfl

/-- The fold of max over the 17 scores of a patch, started at the word −inf. -/
theorem fold_at (b : Fin 32) (p : Fin 576) :
    val_main_v15 (F := Ideal) x0 x1 (ix2 b p) = top (scoreDist x0 x1 b p) := by
  have h : S32x576x17.Reduces [2] S32x576 := by decide
  unfold val_main_v15
  rw [Host.reduce_eq_fold_single FloatOps.maximumf _ _ reducesTo_S32x576x17_S32x576_d2 h h_S_]
  have hf : (val_main_v14 (F := Ideal) x0 x1 ∘ h.lift (ix2 b p)) = fun k : Fin 17 => scoreDist x0 x1 b p k := by
    refine funext fun (k : Fin 17) => ?_
    have e : h.lift (ix2 b p) k = ix3 b p k :=
      funext fun c => Fin.ext (by match c with | ⟨0, _⟩ => rfl | ⟨1, _⟩ => rfl | ⟨2, _⟩ => rfl)
    show val_main_v14 (F := Ideal) x0 x1 (h.lift (ix2 b p) k) = _
    rw [e, score_at]
  rw [hf]
  rfl

/-- The reference's row maximum: max of the word −inf and the fold, which is the fold. -/
theorem top_at (b : Fin 32) (p : Fin 576) :
    val_main_v17 (F := Ideal) x0 x1 (ix2 b p) = top (scoreDist x0 x1 b p) := by
  rw [val_main_v17_apply, fold_at, val_main_v16_apply, val_main_cst_3_apply]
  show max negInf (top (scoreDist x0 x1 b p)) = top (scoreDist x0 x1 b p)
  exact max_eq_right ((Finset.le_fold_max _).2 (Or.inl le_rfl))

/-- exp (score − maximum). -/
theorem exp_at (b : Fin 32) (p : Fin 576) (k : Fin 17) :
    val_main_v21 (F := Ideal) x0 x1 (ix3 b p k)
      = Ideal.exp (scoreDist x0 x1 b p k - top (scoreDist x0 x1 b p)) := by
  have e : idx_main_v18 (idx_main_v19 (ix3 b p k)) = ix2 b p :=
    funext fun a => Fin.ext (by match a with | ⟨0, _⟩ => rfl | ⟨1, _⟩ => rfl)
  rw [val_main_v21_apply, val_main_v20_apply, val_main_v19_apply, val_main_v18_apply, e, top_at, score_at]
  rfl

/-- The sum of the 17 exponentials. -/
theorem expSum_at (b : Fin 32) (p : Fin 576) :
    val_main_v22 (F := Ideal) x0 x1 (ix2 b p)
      = ∑ j : Fin 17, Ideal.exp (scoreDist x0 x1 b p j - top (scoreDist x0 x1 b p)) := by
  rw [val_main_v22_apply, val_main_cst_4_apply, Ideal.ofBits_def, Ideal.ofBits_zero_f32, zero_add]
  refine Finset.sum_congr rfl fun j _ => ?_
  have e : idx_main_v22 (ix2 b p) j = ix3 b p j :=
    funext fun a => Fin.ext (by match a with | ⟨0, _⟩ => rfl | ⟨1, _⟩ => rfl | ⟨2, _⟩ => rfl)
  rw [e, exp_at]

/-- The reference's assignment array is the specification's assignment from the distance score. -/
theorem assign_at (b : Fin 32) (p : Fin 576) (k : Fin 17) :
    val_main_v25 (F := Ideal) x0 x1 (ix3 b p k) = assignDist x0 x1 b p k := by
  have e : idx_main_v23 (idx_main_v24 (ix3 b p k)) = ix2 b p :=
    funext fun a => Fin.ext (by match a with | ⟨0, _⟩ => rfl | ⟨1, _⟩ => rfl)
  rw [val_main_v25_apply, val_main_v24_apply, val_main_v23_apply, e, expSum_at, exp_at]
  rfl

/-- The first result: the assignment transposed to (b, k, p) and p split as 24·h + w. -/
theorem ref_maps : val_main_v27 (F := Ideal) x0 x1 = outMaps (assignDist x0 x1) := by
  funext i
  obtain ⟨b, k, h, w, rfl⟩ : ∃ (b : Fin 32) (k : Fin 17) (h w : Fin 24), i = ix4 b k h w :=
    ⟨i 0, i 1, i 2, i 3, eq_ix4 i⟩
  have e : idx_main_v26 (idx_main_v27 (ix4 b k h w)) = ix3 b (patchOf h w) k := by
    have hb := b.isLt; have hk := k.isLt; have hh := h.isLt; have hw := w.isLt
    refine funext fun a => Fin.ext ?_
    match a with
    | ⟨0, _⟩ => show (((b.val * 17 + k.val) * 24 + h.val) * 24 + w.val) / 9792 = b.val; omega
    | ⟨1, _⟩ => show (((b.val * 17 + k.val) * 24 + h.val) * 24 + w.val) % 576 = h.val * 24 + w.val; omega
    | ⟨2, _⟩ => show (((b.val * 17 + k.val) * 24 + h.val) * 24 + w.val) / 576 % 17 = k.val; omega
  rw [val_main_v27_apply, val_main_v26_apply, e, assign_at]
  rfl

end Cert.RefModel

end
-- ==== Proof.RefIsModelB.lean ====
/-
  Everything after the softmax in the reference program, read index by index: the pooled features, their
  layer normalisation, the class scores and the parts' average are the specification's functions of the
  reference's assignment.

  The chain: the pooled feature (a sum over the 576 patches of assignment times patch feature, divided by the
  word 576), the slice to the 16 foreground parts (row k of 17), the mean over the 768 features, the centred
  feature, the centred second moment, the reciprocal square root of it plus the word eps, the scale and shift,
  the 768 × 200 matrix product plus the bias, and the average over the 16 parts. A sum starts at the word 0,
  which is 0.
-/
import proofs.«171693_j11201274708047_2_alg».proof.Proof.RefIsModelA

noncomputable section

namespace Cert.RefModel

open Cert.ReferenceIdeal Cert.ReferenceIdeal.Gen Cert.ReferenceIdeal.Read Cert.PartModel
open Idealize.ShloMosaic Idealize.ShloMosaic.ValueIdx

variable (x0 : (⟨S32x24x24x768, .f32⟩ : BufTy).Contents (Elt Ideal)) (x1 : (⟨S17x768, .f32⟩ : BufTy).Contents (Elt Ideal))
  (x2 x3 : (⟨S768, .f32⟩ : BufTy).Contents (Elt Ideal)) (x4 : (⟨S768x200, .f32⟩ : BufTy).Contents (Elt Ideal))
  (x5 : (⟨S200, .f32⟩ : BufTy).Contents (Elt Ideal))

/-- Prototype k's pooled feature d. -/
theorem pooled_at (b : Fin 32) (k : Fin 17) (d : Fin 768) :
    val_main_v30 (F := Ideal) x0 x1 (ix3 b k d) = pooled (assignDist x0 x1) x0 b k d := by
  rw [val_main_v30_apply, val_main_v28_apply, val_main_v29_apply, val_main_cst_5_apply, Ideal.hostDivf_def]
  unfold pooled
  refine congrArg (fun s => Ideal.div s _) (Finset.sum_congr rfl fun p _ => ?_)
  have el : lidx_main_v28 (ix3 b k d) p = ix3 b p k :=
    funext fun a => Fin.ext (by match a with | ⟨0, _⟩ => rfl | ⟨1, _⟩ => rfl | ⟨2, _⟩ => rfl)
  have er : ridx_main_v28 (ix3 b k d) p = ix3 b p d :=
    funext fun a => Fin.ext (by match a with | ⟨0, _⟩ => rfl | ⟨1, _⟩ => rfl | ⟨2, _⟩ => rfl)
  rw [el, er, assign_at, patch_at]

/-- The slice keeps the 16 foreground parts. -/
theorem fg_at (b : Fin 32) (k : Fin 16) (d : Fin 768) :
    val_main_v31 (F := Ideal) x0 x1 (ix3 b k d) = fg (assignDist x0 x1) x0 b k d := by
  have e : idx_main_v31 (ix3 b k d) = ix3 b (fgOf k) d :=
    funext fun a => Fin.ext (by match a with | ⟨0, _⟩ => rfl | ⟨1, _⟩ => rfl | ⟨2, _⟩ => rfl)
  rw [val_main_v31_apply, e, pooled_at]
  rfl

/-- The mean over the 768 features. -/
theorem mean_at (b : Fin 32) (k : Fin 16) (z : Fin 1) :
    val_main_v35 (F := Ideal) x0 x1 (ix3 b k z) = mean (assignDist x0 x1) x0 b k := by
  have e : idx_main_v33 (ix3 b k z) = ix2 b k :=
    funext fun a => Fin.ext (by match a with | ⟨0, _⟩ => rfl | ⟨1, _⟩ => rfl)
  rw [val_main_v35_apply, val_main_v33_apply, e, val_main_v32_apply, val_main_cst_6_apply, Ideal.ofBits_def,
    Ideal.ofBits_zero_f32, zero_add, val_main_v34_apply, val_main_cst_7_apply, Ideal.hostDivf_def]
  unfold mean
  refine congrArg (fun s => Ideal.div s _) (Finset.sum_congr rfl fun d _ => ?_)
  have e' : idx_main_v32 (ix2 b k) d = ix3 b k d :=
    funext fun a => Fin.ext (by match a with | ⟨0, _⟩ => rfl | ⟨1, _⟩ => rfl | ⟨2, _⟩ => rfl)
  rw [e', fg_at]

/-- The centred feature (as the second moment uses it). -/
theorem centred_at (b : Fin 32) (k : Fin 16) (d : Fin 768) :
    val_main_v37 (F := Ideal) x0 x1 (ix3 b k d) = centred (assignDist x0 x1) x0 b k d := by
  have e : idx_main_v36 (ix3 b k d) = ix3 b k (⟨0, Nat.one_pos⟩ : Fin 1) :=
    funext fun a => Fin.ext (by match a with | ⟨0, _⟩ => rfl | ⟨1, _⟩ => rfl | ⟨2, _⟩ => rfl)
  rw [val_main_v37_apply, val_main_v36_apply, e, mean_at, fg_at]
  rfl

/-- The centred feature (as the normalisation uses it: the same array, written a second time). -/
theorem centred_at' (b : Fin 32) (k : Fin 16) (d : Fin 768) :
    val_main_v44 (F := Ideal) x0 x1 (ix3 b k d) = centred (assignDist x0 x1) x0 b k d := by
  have e : idx_main_v43 (ix3 b k d) = ix3 b k (⟨0, Nat.one_pos⟩ : Fin 1) :=
    funext fun a => Fin.ext (by match a with | ⟨0, _⟩ => rfl | ⟨1, _⟩ => rfl | ⟨2, _⟩ => rfl)
  rw [val_main_v44_apply, val_main_v43_apply, e, mean_at, fg_at]
  rfl

/-- The centred second moment. -/
theorem variance_at (b : Fin 32) (k : Fin 16) (z : Fin 1) :
    val_main_v42 (F := Ideal) x0 x1 (ix3 b k z) = variance (assignDist x0 x1) x0 b k := by
  have e : idx_main_v40 (ix3 b k z) = ix2 b k :=
    funext fun a => Fin.ext (by match a with | ⟨0, _⟩ => rfl | ⟨1, _⟩ => rfl)
  rw [val_main_v42_apply, val_main_v40_apply, e, val_main_v39_apply, val_main_cst_8_apply, Ideal.ofBits_def,
    Ideal.ofBits_zero_f32, zero_add, val_main_v41_apply, val_main_cst_9_apply, Ideal.hostDivf_def]
  unfold variance
  refine congrArg (fun s => Ideal.div s _) (Finset.sum_congr rfl fun d _ => ?_)
  have e' : idx_main_v39 (ix2 b k) d = ix3 b k d :=
    funext fun a => Fin.ext (by match a with | ⟨0, _⟩ => rfl | ⟨1, _⟩ => rfl | ⟨2, _⟩ => rfl)
  rw [e', val_main_v38_apply, centred_at]
  rfl

/-- The reciprocal square root of the second moment plus eps. -/
theorem rstd_at (b : Fin 32) (k : Fin 16) (z : Fin 1) :
    val_main_v47 (F := Ideal) x0 x1 (ix3 b k z) = Ideal.rsqrt (variance (assignDist x0 x1) x0 b k + eps) := by
  rw [val_main_v47_apply, val_main_v46_apply, variance_at, val_main_v45_apply, val_main_cst_10_apply,
    Ideal.hostUnary_rsqrt_def]
  rfl

/-- The layer-normalised pooled feature. -/
theorem normed_at (b : Fin 32) (k : Fin 16) (d : Fin 768) :
    val_main_v55 (F := Ideal) x0 x1 x2 x3 (ix3 b k d) = normed (assignDist x0 x1) x0 x2 x3 b k d := by
  have e48 : idx_main_v48 (ix3 b k d) = ix3 b k (⟨0, Nat.one_pos⟩ : Fin 1) :=
    funext fun a => Fin.ext (by match a with | ⟨0, _⟩ => rfl | ⟨1, _⟩ => rfl | ⟨2, _⟩ => rfl)
  have e51 : idx_main_v50 (idx_main_v51 (ix3 b k d)) = ix1 d :=
    funext fun a => Fin.ext (by match a with | ⟨0, _⟩ => rfl)
  have e54 : idx_main_v53 (idx_main_v54 (ix3 b k d)) = ix1 d :=
    funext fun a => Fin.ext (by match a with | ⟨0, _⟩ => rfl)
  rw [val_main_v55_apply, val_main_v52_apply, val_main_v49_apply, centred_at', val_main_v48_apply, e48, rstd_at,
    val_main_v51_apply, val_main_v50_apply, e51, val_main_v54_apply, val_main_v53_apply, e54]
  rfl

/-- Class score c of part k. -/
theorem logit_at (b : Fin 32) (k : Fin 16) (c : Fin 200) :
    val_main_v59 (F := Ideal) x0 x1 x2 x3 x4 x5 (ix3 b k c) = logit (assignDist x0 x1) x0 x2 x3 x4 x5 b k c := by
  have e58 : idx_main_v57 (idx_main_v58 (ix3 b k c)) = ix1 c :=
    funext fun a => Fin.ext (by match a with | ⟨0, _⟩ => rfl)
  rw [val_main_v59_apply, val_main_v56_apply, val_main_v58_apply, val_main_v57_apply, e58]
  unfold logit
  refine congrArg (fun s => FloatOps.addf (F := Ideal) (φ := .f32) s _) (Finset.sum_congr rfl fun d _ => ?_)
  have el : lidx_main_v56 (ix3 b k c) d = ix3 b k d :=
    funext fun a => Fin.ext (by match a with | ⟨0, _⟩ => rfl | ⟨1, _⟩ => rfl | ⟨2, _⟩ => rfl)
  have er : ridx_main_v56 (ix3 b k c) d = ix2 d c :=
    funext fun a => Fin.ext (by match a with | ⟨0, _⟩ => rfl | ⟨1, _⟩ => rfl)
  rw [el, er, normed_at]

/-- The parts' average. -/
theorem pooledLogit_at (b : Fin 32) (c : Fin 200) :
    val_main_v62 (F := Ideal) x0 x1 x2 x3 x4 x5 (ix2 b c) = pooledLogit (assignDist x0 x1) x0 x2 x3 x4 x5 b c := by
  rw [val_main_v62_apply, val_main_v60_apply, val_main_cst_11_apply, Ideal.ofBits_def, Ideal.ofBits_zero_f32, zero_add,
    val_main_v61_apply, val_main_cst_12_apply, Ideal.hostDivf_def]
  unfold pooledLogit
  refine congrArg (fun s => Ideal.div s _) (Finset.sum_congr rfl fun k _ => ?_)
  have e : idx_main_v60 (ix2 b c) k = ix3 b k c :=
    funext fun a => Fin.ext (by match a with | ⟨0, _⟩ => rfl | ⟨1, _⟩ => rfl | ⟨2, _⟩ => rfl)
  rw [e, logit_at]

/-- The second result. -/
theorem ref_normed :
    val_main_v55 (F := Ideal) x0 x1 x2 x3 = outNormed (assignDist x0 x1) x0 x2 x3 := by
  funext i
  obtain ⟨b, k, d, rfl⟩ : ∃ (b : Fin 32) (k : Fin 16) (d : Fin 768), i = ix3 b k d := ⟨i 0, i 1, i 2, eq_ix3 i⟩
  rw [normed_at]
  rfl

/-- The third result. -/
theorem ref_logits :
    val_main_v59 (F := Ideal) x0 x1 x2 x3 x4 x5 = outLogits (assignDist x0 x1) x0 x2 x3 x4 x5 := by
  funext i
  obtain ⟨b, k, c, rfl⟩ : ∃ (b : Fin 32) (k : Fin 16) (c : Fin 200), i = ix3 b k c := ⟨i 0, i 1, i 2, eq_ix3 i⟩
  rw [logit_at]
  rfl

/-- The fourth result. -/
theorem ref_pooled :
    val_main_v62 (F := Ideal) x0 x1 x2 x3 x4 x5 = outPooled (assignDist x0 x1) x0 x2 x3 x4 x5 := by
  funext i
  obtain ⟨b, c, rfl⟩ : ∃ (b : Fin 32) (c : Fin 200), i = ix2 b c := ⟨i 0, i 1, eq_ix2 i⟩
  rw [pooledLogit_at]
  rfl

end Cert.RefModel

end
-- ==== Proof.LibSoftmaxShift.lean ====
/-
  A softmax on the extended reals does not see a common real shift of its scores.

  For real scores s_j and a real M, exp (s_j − M) / Σ_j' exp (s_j' − M) = exp s_j / Σ_j' exp s_j': the common
  factor exp (−M) cancels, the sums being positive. It is an identity of real numbers, carried into the extended
  reals through the coercion of a finite sum (a sum of coerced reals is the coerced sum). The shift a stable
  softmax subtracts is the row's maximum, the fold of max from −∞ over the row; over at least one real it is
  a real: below +∞ because every entry is, and at least the first entry, hence above −∞.
-/
import Idealize.ShloMosaic.PureOps.Ideal

noncomputable section

namespace Cert.LibSoftmaxShift

open Idealize.ShloMosaic
open scoped BigOperators

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Softmax does not see a common real shift of its scores. -/
theorem softmax_shift {ι : Type} [Fintype ι] [Nonempty ι] (s : ι → ℝ) (M : ℝ) (j : ι) :
    Ideal.div (Ideal.exp ((s j : EReal) - (M : EReal))) (0 + ∑ j' : ι, Ideal.exp ((s j' : EReal) - (M : EReal)))
      = Ideal.div (Ideal.exp (s j : EReal)) (∑ j' : ι, Ideal.exp (s j' : EReal)) := by
  have hpos : ∀ t : ι → ℝ, (0 : ℝ) < ∑ j' : ι, Real.exp (t j') := fun t =>
    Finset.sum_pos (fun _ _ => Real.exp_pos _) Finset.univ_nonempty
  simp only [← EReal.coe_sub, Ideal.exp_coe, coe_sum, zero_add]
  rw [Ideal.div_coe (hpos fun j' => s j' - M).ne', Ideal.div_coe (hpos s).ne', ← EReal.coe_mul, ← EReal.coe_mul]
  congr 1
  have hM : Real.exp M ≠ 0 := (Real.exp_pos M).ne'
  have h1 : ∑ j' : ι, Real.exp (s j' - M) = (∑ j' : ι, Real.exp (s j')) / Real.exp M := by
    rw [Finset.sum_div]; exact Finset.sum_congr rfl fun j' _ => Real.exp_sub _ _
  rw [h1, Real.exp_sub]
  have := (hpos s).ne'
  field_simp

/-- The maximum of finitely many reals (at least one), started from ⊥, is a real. -/
theorem fold_max_real {n : Nat} (hn : 0 < n) (f : Fin n → EReal) (hf : ∀ k, ∃ r : ℝ, f k = (r : EReal)) :
    ∃ r : ℝ, (Finset.univ : Finset (Fin n)).fold max ⊥ f = (r : EReal) := by
  have hlt : (Finset.univ : Finset (Fin n)).fold max ⊥ f < ⊤ :=
    (Finset.fold_max_lt _).2 ⟨bot_lt_top, fun k _ => by obtain ⟨r, hr⟩ := hf k; rw [hr]; exact EReal.coe_lt_top r⟩
  have hge : f ⟨0, hn⟩ ≤ (Finset.univ : Finset (Fin n)).fold max ⊥ f :=
    (Finset.le_fold_max _).2 (Or.inr ⟨⟨0, hn⟩, Finset.mem_univ _, le_rfl⟩)
  have hne : (Finset.univ : Finset (Fin n)).fold max ⊥ f ≠ ⊥ := by
    obtain ⟨r, hr⟩ := hf ⟨0, hn⟩
    rw [hr] at hge
    exact ne_of_gt (lt_of_lt_of_le (EReal.bot_lt_coe r) hge)
  exact ⟨_, (EReal.coe_toReal hlt.ne hne).symm⟩

end Cert.LibSoftmaxShift

end
-- ==== Proof.SoftmaxScores.lean ====
/-
  The two scores of the part-assignment softmax give the same assignment.

  With real inputs the inner products ⟨x,P_k⟩ and the squared norms |P_k|², |x|² are real numbers, and so are
  both scores: 2·⟨x,P_k⟩ − |P_k|² and −((|x|² − 2·⟨x,P_k⟩) + |P_k|²) = (2·⟨x,P_k⟩ − |P_k|²) − |x|².  The
  second is the first shifted by the patch's own |x|², the same real for all 17 prototypes.  A softmax of real
  scores that first subtracts the scores' maximum (a real: the largest of 17 reals) equals the plain quotient
  exp s_k / Σ_j exp s_j, because a common real shift cancels; and by the same cancellation the plain quotient of
  the shifted scores equals the plain quotient of the unshifted ones.
-/
import proofs.«171693_j11201274708047_2_alg».proof.Proof.PartModel
import proofs.«171693_j11201274708047_2_alg».proof.Proof.LibSoftmaxShift

noncomputable section

namespace Cert.SoftmaxScores

open Idealize.ShloMosaic Idealize.ShloMosaic.ValueIdx
open Cert.PartModel Cert.LibSoftmaxShift
open scoped BigOperators

/-- The word the maximum starts from is −∞. -/
theorem negInf_eq_bot : negInf = ⊥ := by
  simp [negInf, Ideal.ofBits, Ideal.ieee]

/-- The word in front of the inner product is a real number (it is 2). -/
theorem two_real : ∃ t : ℝ, two = (t : EReal) := by
  refine ⟨2, ?_⟩
  simp [two, Ideal.ofBits, Ideal.ieee, -EReal.coe_mul]
  norm_num

/-- A maximum-shifted softmax of 17 real scores is the plain quotient exp s_k / Σ_j exp s_j. -/
theorem softmax_real (s : Fin 17 → ℝ) (k : Fin 17) :
    softmax (fun j => (s j : EReal)) k
      = Ideal.div (Ideal.exp (s k : EReal)) (∑ j : Fin 17, Ideal.exp (s j : EReal)) := by
  obtain ⟨M, hM⟩ := fold_max_real (n := 17) (by norm_num) (fun j => (s j : EReal)) (fun j => ⟨s j, rfl⟩)
  have h := softmax_shift s M k
  rw [zero_add] at h
  unfold softmax top
  rw [negInf_eq_bot, hM]
  exact h

/-- With real inputs, the distance score and the short score give the same assignment. -/
theorem assignDist_eq_assignShort (x : ShX.Idx → EReal) (P : ShP.Idx → EReal)
    (hx : ∀ i, ∃ r : ℝ, x i = (r : EReal)) (hP : ∀ i, ∃ r : ℝ, P i = (r : EReal)) :
    assignDist x P = assignShort x P := by
  choose xr hxr using hx
  choose Pr hPr using hP
  obtain ⟨t, ht⟩ := two_real
  funext b p k
  -- the three sums as real numbers
  have hin : ∀ j : Fin 17, PartModel.inner x P b p j
      = ((∑ d : Fin 768, xr (ix4 b (rowOf p) (colOf p) d) * Pr (ix2 j d) : ℝ) : EReal) := by
    intro j
    simp only [PartModel.inner, patch, hxr, hPr, ← EReal.coe_mul, coe_sum]
  have hpr : ∀ j : Fin 17, protoSq P j = ((∑ d : Fin 768, Pr (ix2 j d) * Pr (ix2 j d) : ℝ) : EReal) := by
    intro j
    simp only [protoSq, hPr, ← EReal.coe_mul, coe_sum]
  have hpa : patchSq x b p
      = ((∑ d : Fin 768, xr (ix4 b (rowOf p) (colOf p) d) * xr (ix4 b (rowOf p) (colOf p) d) : ℝ) : EReal) := by
    simp only [patchSq, patch, hxr, ← EReal.coe_mul, coe_sum]
  -- the short score as a real, the distance score as that real minus |x|²
  set sS : Fin 17 → ℝ := fun j =>
    t * (∑ d : Fin 768, xr (ix4 b (rowOf p) (colOf p) d) * Pr (ix2 j d)) - ∑ d : Fin 768, Pr (ix2 j d) * Pr (ix2 j d)
    with hsS
  set c : ℝ := ∑ d : Fin 768, xr (ix4 b (rowOf p) (colOf p) d) * xr (ix4 b (rowOf p) (colOf p) d) with hc
  have hS : scoreShort x P b p = fun j => ((sS j : ℝ) : EReal) := by
    funext j
    simp only [scoreShort, hin, hpr, ht, ← EReal.coe_mul, ← EReal.coe_sub, hsS]
  have hD : scoreDist x P b p = fun j => ((sS j - c : ℝ) : EReal) := by
    funext j
    simp only [scoreDist, hin, hpr, hpa, ht, ← EReal.coe_mul, ← EReal.coe_sub, ← EReal.coe_add, ← EReal.coe_neg, hsS]
    congr 1
    ring
  show softmax (scoreDist x P b p) k = softmax (scoreShort x P b p) k
  rw [hS, hD, softmax_real, softmax_real]
  have h := softmax_shift sS c k
  rw [zero_add] at h
  simpa only [EReal.coe_sub] using h

end Cert.SoftmaxScores

end
-- ==== Proof.FiniteInputs.lean ====
/-
  From the certificate's precondition to "every entry of the first two arguments is a real number".

  The precondition is the conjunction, over the six argument arrays, of "all entries satisfy |v| < +∞".  As a
  printed function it is a chain of `and`s of six reductions by `and` (each started from 1) of the elementwise
  comparison of |v| with the word +∞, and the claim says that its one result is 1.  An `and` that is 1 has both
  operands 1; a reduction by `and` over all axes that is 1 met a 1 at every entry; and an entry's comparison
  being 1 says max v (−v) < ⊤ on the extended reals, which excludes v = ⊤ (then max is ⊤) and v = ⊥ (then −v = ⊤):
  v is a real.
-/
import proofs.«171693_j11201274708047_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic
open Cert.Pre_finite_inputs

/-- The rank-0 shape has one index. -/
instance : Subsingleton S_.Idx := ⟨fun a b => funext fun d => d.elim0⟩

/-- The word the entries are compared with is +∞. -/
theorem inf_eq_top : Ideal.ofBits .f32 0x7F800000#32 = ⊤ := by
  simp [Ideal.ofBits, Ideal.ieee]

/-- One entry: if the comparison of |v| with +∞ is 1, then v is a real. -/
theorem real_of_abs_lt_inf (v : EReal)
    (h : Ideal.cmp .olt (max v (-v)) (Ideal.ofBits .f32 0x7F800000#32) = 1#1) : ∃ r : ℝ, v = (r : EReal) := by
  rw [inf_eq_top] at h
  induction v using EReal.rec with
  | bot => simp [Ideal.cmp] at h
  | coe r => exact ⟨r, rfl⟩
  | top => simp [Ideal.cmp] at h

variable [Facts]

/-- The precondition decoded for the first two arguments: all their entries are reals. -/
theorem finite_of_pre (x0 : FVec Ideal S32x24x24x768 .f32) (x1 : FVec Ideal S17x768 .f32) (x2 : FVec Ideal S768 .f32)
    (x3 : FVec Ideal S768 .f32) (x4 : FVec Ideal S768x200 .f32) (x5 : FVec Ideal S200 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) := by
  have e := congrFun h ValueIdx.ix0
  dsimp only [fn, fn_part1] at e
  simp only [andi, IntOp.andi_eq_one] at e
  obtain ⟨⟨⟨⟨⟨e0, e1⟩, -⟩, -⟩, -⟩, -⟩ := e
  refine ⟨fun i => ?_, fun i => ?_⟩
  · exact real_of_abs_lt_inf (x0 i) (Host.reduce_andi_all _ _ _ _ _ e0 i)
  · exact real_of_abs_lt_inf (x1 i) (Host.reduce_andi_all _ _ _ _ _ e1 i)

end Cert.FiniteInputs

end
-- ==== Proof.lean ====
/-
  The part-discovery head: the fused kernel and its reference compute the same four results on the extended reals.

  Both programs assign every patch of every image softly to 17 prototypes, lay the assignment out as maps, pool the
  patch features of the 16 foreground prototypes with the assignment weights, layer-normalise the pooled vectors, map
  them to class scores and average the scores over the parts (module PartModel). They differ in one place only: the
  reference takes the softmax of minus the squared distance −((|x|² − 2·⟨x,P_k⟩) + |P_k|²), the kernel of
  2·⟨x,P_k⟩ − |P_k|². The two scores differ by the patch's own |x|², common to the 17 prototypes; with finite inputs
  that shift is a real number and the two softmaxes are one function (module SoftmaxScores; finiteness is what the
  precondition gives, module FiniteInputs). Everything after the softmax is the same function of the assignment on
  both sides.

  The reference's run is the generated one, its four result terms read as the model's arrays at the distance-score
  assignment (RefIsModelA, RefIsModelB). The kernel's run is read off the generated frame run: the body's value for one
  image (ItemPayloads, ItemSoftmax, ItemHead, ItemAtModel), the four images of a block (BlockValues), the arrays the
  region finds (EntryArrays), the arrays it leaves (KernelArrays) and the two reshapes after it (KernelRun). The frames
  of the two kernel programs are the generated ones; the reference's frame is its run with the results dropped; the
  idealization rewrote no operation, so there is nothing to preserve.
-/
import proofs.«171693_j11201274708047_2_alg».proof.Defs
import proofs.«171693_j11201274708047_2_alg».proof.Proof.Gen.Kernel
import proofs.«171693_j11201274708047_2_alg».proof.Proof.Gen.Kernel.Skeleton
import proofs.«171693_j11201274708047_2_alg».proof.Proof.Gen.Kernel.Launch
import proofs.«171693_j11201274708047_2_alg».proof.Proof.Gen.Kernel.Points
import proofs.«171693_j11201274708047_2_alg».proof.Proof.Gen.Kernel.Frame
import proofs.«171693_j11201274708047_2_alg».proof.Proof.Gen.KernelIdeal
import proofs.«171693_j11201274708047_2_alg».proof.Proof.Gen.KernelIdeal.Skeleton
import proofs.«171693_j11201274708047_2_alg».proof.Proof.Gen.KernelIdeal.Launch
import proofs.«171693_j11201274708047_2_alg».proof.Proof.Gen.KernelIdeal.Points
import proofs.«171693_j11201274708047_2_alg».proof.Proof.Gen.KernelIdeal.Frame
import proofs.«171693_j11201274708047_2_alg».proof.Proof.Gen.ReferenceIdeal
import proofs.«171693_j11201274708047_2_alg».proof.Proof.Gen.Pre_finite_inputs
import proofs.«171693_j11201274708047_2_alg».proof.Proof.Gen.ReferenceIdeal.Run
import proofs.«171693_j11201274708047_2_alg».proof.Proof.Gen.ReferenceIdeal.Read
import proofs.«171693_j11201274708047_2_alg».proof.Proof.KernelRun
import proofs.«171693_j11201274708047_2_alg».proof.Proof.RefIsModelB
import proofs.«171693_j11201274708047_2_alg».proof.Proof.SoftmaxScores
import proofs.«171693_j11201274708047_2_alg».proof.Proof.FiniteInputs
import Idealize.ShloMosaic.Adequacy
import Idealize.ShloMosaic.Init

noncomputable section

namespace Cert.Proof

open Idealize.ShloMosaic Idealize.SL.Sem Cert.PartModel Cert.KernelEntry

/-- The kernel as printed runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- Both programs end at the model's four arrays: the kernel at the short-score assignment, the reference at the
    distance-score assignment of the same (agreeing, finite) arguments, and the two assignments are one. -/
theorem algebraic : Cert.algebraic_KernelIdeal_ReferenceIdeal := by
  intro m ρ m' ρ' hpre hagree
  refine ⟨fun c => outMaps (assignShort (argX m c) (argP m c)),
    fun c => outNormed (assignShort (argX m c) (argP m c)) (argX m c) (argG m c) (argB m c),
    fun c => outLogits (assignShort (argX m c) (argP m c)) (argX m c) (argG m c) (argB m c) (argW m c) (argC m c),
    fun c => outPooled (assignShort (argX m c) (argP m c)) (argX m c) (argG m c) (argB m c) (argW m c) (argC m c),
    Cert.KernelRun.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  obtain ⟨hx, hP⟩ := Cert.FiniteInputs.finite_of_pre _ _ _ _ _ _ (hpre c)
  have hA : assignDist (argX m c) (argP m c) = assignShort (argX m c) (argP m c) :=
    Cert.SoftmaxScores.assignDist_eq_assignShort _ _ hx hP
  refine ⟨(h c).1.trans ?_, (h c).2.1.trans ?_, (h c).2.2.1.trans ?_, (h c).2.2.2.1.trans ?_, (h c).2.2.2.2⟩
  · rw [Cert.ReferenceIdeal.Read.val_main_v27_eq, a0, a1, Cert.RefModel.ref_maps, hA]
  · rw [Cert.ReferenceIdeal.Read.val_main_v55_eq, a0, a1, a2, a3, Cert.RefModel.ref_normed, hA]
  · rw [Cert.ReferenceIdeal.Read.val_main_v59_eq, a0, a1, a2, a3, a4, a5, Cert.RefModel.ref_logits, hA]
  · rw [Cert.ReferenceIdeal.Read.val_main_v62_eq, a0, a1, a2, a3, a4, a5, Cert.RefModel.ref_pooled, hA]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
